-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S10000x128 : Shape := ⟨2, ![10000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg14 : FVec F S2 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2 .f32 := Host.absf main_arg14
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg10 : FVec F S128x128 .f32) (main_arg11 : FVec F S64x128 .f32) (main_arg12 : FVec F S64 .f32) (main_arg13 : FVec F S2x64 .f32) (main_arg14 : FVec F S2 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S2x64 .f32 := Host.absf main_arg13
  let main_cst_18 : FVec F S_ .f32 := constant S_ .f32 0x7F800000#32
  let main_v50 : FVec F S2x64 .f32 := broadcastInDim S2x64 ![] bcast_S_S2x64 main_cst_18
  fn_part3 (F := F) main_arg14 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S2x64 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S100000 32) (main_arg1 : IVec S2x1600000 32) (main_arg2 : FVec F S1600000 .f32) (main_arg3 : IVec S100000 32) (main_arg4 : FVec F S10000x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S2x64 .f32) (main_arg14 : FVec F S2 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S10000x128 .f32 := Host.absf main_arg4
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S100000 : Shape := ⟨1, ![100000]⟩
abbrev S2x1600000 : Shape := ⟨2, ![2, 1600000]⟩
abbrev S1600000 : Shape := ⟨1, ![1600000]⟩
abbrev S10000x128 : Shape := ⟨2, ![10000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S_ : Shape := ⟨0, ![]⟩
abbrev S100000x1 : Shape := ⟨2, ![100000, 1]⟩
abbrev S100000x128 : Shape := ⟨2, ![100000, 128]⟩
abbrev S5000x128 : Shape := ⟨2, ![5000, 128]⟩
abbrev S5000 : Shape := ⟨1, ![5000]⟩
abbrev S5000x1 : Shape := ⟨2, ![5000, 1]⟩
abbrev S128x64 : Shape := ⟨2, ![128, 64]⟩
abbrev S64x2 : Shape := ⟨2, ![64, 2]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x2 : Shape := ⟨2, ![256, 2]⟩
abbrev S256x64 : Shape := ⟨2, ![256, 64]⟩
abbrev S1x64 : Shape := ⟨2, ![1, 64]⟩
abbrev S1x2 : Shape := ⟨2, ![1, 2]⟩

abbrev nBuf : Space → Nat
  | .hbm => 87
  | .vmem => 29
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S10000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S64x128, .f32⟩
  | .hbm, ⟨12, _⟩ => ⟨S64, .f32⟩
  | .hbm, ⟨13, _⟩ => ⟨S2x64, .f32⟩
  | .hbm, ⟨14, _⟩ => ⟨S2, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S100000, .i32⟩
  | .hbm, ⟨21, _⟩ => ⟨S100000, .i1⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000, .i32⟩
  | .hbm, ⟨26, _⟩ => ⟨S100000x1, .i32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S128x64, .f32⟩
  | .hbm, ⟨38, _⟩ => ⟨S128x64, .bf16⟩
  | .hbm, ⟨39, _⟩ => ⟨S64x2, .f32⟩
  | .hbm, ⟨40, _⟩ => ⟨S64x2, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x1, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S256x128, .f32⟩
  | .hbm, ⟨77, _⟩ => ⟨S100000x1, .i32⟩
  | .hbm, ⟨78, _⟩ => ⟨S256x128, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S256, .f32⟩
  | .hbm, ⟨83, _⟩ => ⟨S100000x1, .i32⟩
  | .hbm, ⟨84, _⟩ => ⟨S256, .f32⟩
  | .hbm, ⟨85, _⟩ => ⟨S256x1, .f32⟩
  | .hbm, ⟨86, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128, .f32⟩
  | .local _ .vmem, ⟨19, _⟩ => ⟨S128x128, .bf16⟩
  | .local _ .vmem, ⟨20, _⟩ => ⟨S5000x128, .f32⟩
  | .local _ .vmem, ⟨21, _⟩ => ⟨S5000x128, .f32⟩
  | .local _ .vmem, ⟨22, _⟩ => ⟨S256x128, .f32⟩
  | .local _ .vmem, ⟨23, _⟩ => ⟨S256x1, .f32⟩
  | .local _ .vmem, ⟨24, _⟩ => ⟨S128x64, .bf16⟩
  | .local _ .vmem, ⟨25, _⟩ => ⟨S64, .f32⟩
  | .local _ .vmem, ⟨26, _⟩ => ⟨S64x2, .bf16⟩
  | .local _ .vmem, ⟨27, _⟩ => ⟨S2, .f32⟩
  | .local _ .vmem, ⟨28, _⟩ => ⟨S256x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  transposes_S128x128_S128x128_1_0 : S128x128.Transposes [1, 0] S128x128
  bitsLt_bf16_f32 : FTy.bits .bf16 < FTy.bits .f32
  transposes_S64x128_S128x64_1_0 : S64x128.Transposes [1, 0] S128x64
  transposes_S2x64_S64x2_1_0 : S2x64.Transposes [1, 0] S64x2
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  gather_S10000x128_S100000x1_S100000x128_1_0_n_n_0_1_1128_wf : GatherDims.WF S10000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S256x1.size a
  hwx3_1 : ∀ i : grid3.Coords, EltTy.bits .f32 = 32 ∨ (Rect.block (s := S256x1) S256x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .bf16 = 32 ∨ (Rect.block (s := S128x64) S128x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .bf16 = 32 ∨ (Rect.block (s := S64x2) S64x2.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2.size a ≤ S2.size a
  hwx3_5 : ∀ i : grid3.Coords, EltTy.bits .f32 = 32 ∨ (Rect.block (s := S2) S2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x2.size a ≤ S256x2.size a
  hwx3_6 : ∀ i : grid3.Coords, EltTy.bits .f32 = 32 ∨ (Rect.block (s := S256x2) S256x2.size (cc3_transform_6 i) (hinb3_6 i)).WholeWords (EltTy.packing .f32)

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v59) S256x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S64x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S256x2.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S10000x128 : Shape := ⟨2, ![10000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S128x64 : Shape := ⟨2, ![128, 64]⟩
abbrev S256x64 : Shape := ⟨2, ![256, 64]⟩
abbrev S1x64 : Shape := ⟨2, ![1, 64]⟩
abbrev S64x2 : Shape := ⟨2, ![64, 2]⟩
abbrev S256x2 : Shape := ⟨2, ![256, 2]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S100000, .i32⟩
  | 1 => ⟨S2x1600000, .i32⟩
  | 2 => ⟨S1600000, .f32⟩
  | 3 => ⟨S100000, .i32⟩
  | 4 => ⟨S10000x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S2x64, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S100000x128, .f32⟩
  | 29 => ⟨S_, .f32⟩
  | 30 => ⟨S100000, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S_, .f32⟩
  | 37 => ⟨S100000x1, .f32⟩
  | 38 => ⟨S100000x1, .f32⟩
  | 39 => ⟨S_, .f32⟩
  | 40 => ⟨S100000x1, .f32⟩
  | 41 => ⟨S100000x1, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S128x128, .f32⟩
  | 61 => ⟨S100000x128, .f32⟩
  | 62 => ⟨S1x128, .f32⟩
  | 63 => ⟨S100000x128, .f32⟩
  | 64 => ⟨S100000x128, .f32⟩
  | 65 => ⟨S128x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S128x128, .f32⟩
  | 88 => ⟨S100000x128, .f32⟩
  | 89 => ⟨S1x128, .f32⟩
  | 90 => ⟨S100000x128, .f32⟩
  | 91 => ⟨S100000x128, .f32⟩
  | 92 => ⟨S128x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .f32⟩
  | 99 => ⟨S256x128, .f32⟩
  | 100 => ⟨S100000x1, .i32⟩
  | 101 => ⟨S256x128, .f32⟩
  | 102 => ⟨S_, .f32⟩
  | 103 => ⟨S100000, .f32⟩
  | 104 => ⟨S_, .f32⟩
  | 105 => ⟨S256, .f32⟩
  | 106 => ⟨S100000x1, .i32⟩
  | 107 => ⟨S256, .f32⟩
  | 108 => ⟨S_, .f32⟩
  | 109 => ⟨S256, .f32⟩
  | 110 => ⟨S256, .f32⟩
  | 111 => ⟨S256x1, .f32⟩
  | 112 => ⟨S256x128, .f32⟩
  | 113 => ⟨S256x128, .f32⟩
  | 114 => ⟨S128x64, .f32⟩
  | 115 => ⟨S256x64, .f32⟩
  | 116 => ⟨S1x64, .f32⟩
  | 117 => ⟨S256x64, .f32⟩
  | 118 => ⟨S256x64, .f32⟩
  | 119 => ⟨S_, .f32⟩
  | 120 => ⟨S256x64, .f32⟩
  | 121 => ⟨S256x64, .f32⟩
  | 122 => ⟨S64x2, .f32⟩
  | 123 => ⟨S256x2, .f32⟩
  | 124 => ⟨S1x2, .f32⟩
  | 125 => ⟨S256x2, .f32⟩
  | 126 => ⟨S256x2, .f32⟩
  | 127 => ⟨S_, .f32⟩
  | _ => ⟨S100000, .i32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256x1, .f32⟩
  | 5 => ⟨S256x2, .f32⟩
  | 6 => ⟨S256x2, .f32⟩
  | 7 => ⟨S256x2, .f32⟩
  | 8 => ⟨S_, .f32⟩
  | 9 => ⟨S256, .f32⟩
  | 10 => ⟨S256x1, .f32⟩
  | 11 => ⟨S256x2, .f32⟩
  | 12 => ⟨S256x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_cst : Ref sig .tc := ⟨.hbm, 68, rfl⟩
abbrev main_call1_v0 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_c_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_cst : Ref sig .tc := ⟨.hbm, 95, rfl⟩
abbrev main_call2_v0 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_cst_11 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call3_cst : Ref sig .tc := ⟨.hbm, 119, rfl⟩
abbrev main_call3_v0 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_13 : Ref sig .tc := ⟨.hbm, 127, rfl⟩
abbrev main_v87 : Ref sig .tc := ⟨.hbm, 128, rfl⟩
abbrev main_cst_14 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  transposes_S64x128_S128x64_1_0 : S64x128.Transposes [1, 0] S128x64
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  transposes_S2x64_S64x2_1_0 : S2x64.Transposes [1, 0] S64x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  bcast_S256x1_S256x2_0_1 : S256x1.BroadcastsInDim S256x2 (![0, 1] : Fin 2 → Fin S256x2.rank)
  gather_S10000x128_S100000x1_S100000x128_1_0_n_n_0_1_1128_wf : GatherDims.WF S10000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The kernel program's run with every buffer named.

  The program is four kernel regions among stretches of host operations.  Every weakly fair execution of it
  terminates without a fault, and in the final memory every buffer that lives for the whole program — the
  argument arrays, every host operation's result, every region's result — holds the contents the fold through
  the program assigns to it: a stretch of host operations applies its operations to the contents before it, a
  region replaces its result array by what its grid points wrote back and leaves every other buffer alone.
-/
import proofs.«146041_j27530740367556_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every whole-program buffer of
    every core at the last boundary's contents: the launch over the program's eight segments, the first thread state
    made from the launch memory, the last one read against the final memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result array and the fifteen argument arrays read off that run. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)
    (run_held m ρ)

end Cert.KernelIdeal.Whole

end
-- ==== Proof.Spec.lean ====
/-
  The network both programs compute, written once, entry by entry, on the extended reals.

  Embedding rows h0 (one row of 128 features per node) are rescaled to Euclidean norm at most one:
  a row r becomes r * min(1, 1 / (sqrt(sum_k r_k^2) + eps)).  Two graph-convolution layers follow;
  each sends an aggregated neighbourhood array A and the node features H to
  max((A * Wl^T + b) + H * Wr^T, 0), where Wl, Wr are [out, in] weight matrices (entry (j, k) multiplies
  input feature k into output feature j).  The node features are then summed per graph (S, with the
  node count cnt of each graph), divided by max(cnt, 1), sent through max(P * W1^T + b1, 0) and
  Z * W2^T + b2, and each row of two logits is normalised by the softmax, the row maximum joined with
  -inf.  Sums are finite sums over Fin; nothing here rounds.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals of extents a, b. -/
abbrev Arr2 (a b : Nat) : Type := (⟨2, ![a, b]⟩ : Shape).Idx → EReal
/-- A rank-1 array of extended reals of extent a. -/
abbrev Arr1 (a : Nat) : Type := (⟨1, ![a]⟩ : Shape).Idx → EReal

/-- The small positive number added to a row's norm (the float 1e-7, as its exact binary value). -/
abbrev eps : EReal := Ideal.ofBits .f32 0x33D6BF95#32
/-- The float one. -/
abbrev one : EReal := Ideal.ofBits .f32 0x3F800000#32
/-- The float zero (the rectifier's threshold). -/
abbrev zero : EReal := Ideal.ofBits .f32 0x00000000#32
/-- The float -inf (what a row maximum starts from). -/
abbrev negInf : EReal := Ideal.ofBits .f32 0xFF800000#32

/-! ## Two re-layouts -/

/-- A matrix read with its two coordinates exchanged. -/
def transposed {a b : Nat} (W : Arr2 a b) : Arr2 b a := fun i => W (ix2 (i 1) (i 0))

/-- The one column of an [a, 1] array as a vector. -/
def colOf {a : Nat} (C : Arr2 a 1) : Arr1 a := fun i => C (ix2 (i 0) (0 : Fin 1))

/-! ## The embedding rows rescaled to norm at most one -/

/-- Entry q of a row after the rescaling: the entry times min(1, 1 / (norm + eps)). -/
def normAt {K : Nat} (row : Fin K → EReal) (q : Fin K) : EReal :=
  row q * min one (Ideal.div one (Ideal.sqrt (∑ k : Fin K, row k * row k) + eps))

/-- The whole array, row by row. -/
def normalize (A : Arr2 100000 128) : Arr2 100000 128 :=
  fun i => normAt (fun k : Fin 128 => A (ix2 (i 0) k)) (i 1)

/-! ## A graph-convolution layer -/

/-- One output entry: the aggregated row a against row wl of Wl, plus the bias, plus the node's own row h against
    row wr of Wr, rectified. -/
def layerAt {K : Nat} (a h wl wr : Fin K → EReal) (b : EReal) : EReal :=
  max (((∑ k : Fin K, a k * wl k) + b) + ∑ k : Fin K, h k * wr k) zero

/-- The whole layer: entry (p, j) reads row p of A and of H and row j of Wl and of Wr. -/
def layer (A H : Arr2 100000 128) (Wl : Arr2 128 128) (b : Arr1 128) (Wr : Arr2 128 128) : Arr2 100000 128 :=
  fun i => layerAt (fun k : Fin 128 => A (ix2 (i 0) k)) (fun k : Fin 128 => H (ix2 (i 0) k))
    (fun k : Fin 128 => Wl (ix2 (i 1) k)) (fun k : Fin 128 => Wr (ix2 (i 1) k)) (b (ix1 (i 1)))

/-! ## The classifier on the pooled graphs -/

/-- A graph's mean feature: its sum over max(count, 1). -/
def pooledAt (s cnt : EReal) : EReal := Ideal.div s (max cnt one)

/-- Hidden unit j of graph p. -/
def hiddenAt (S : Arr2 256 128) (cnt : Arr1 256) (W1 : Arr2 64 128) (b1 : Arr1 64) (p : Fin 256) (j : Fin 64) : EReal :=
  max ((∑ k : Fin 128, pooledAt (S (ix2 p k)) (cnt (ix1 p)) * W1 (ix2 j k)) + b1 (ix1 j)) zero

/-- Logit l of graph p. -/
def logitAt (S : Arr2 256 128) (cnt : Arr1 256) (W1 : Arr2 64 128) (b1 : Arr1 64) (W2 : Arr2 2 64) (b2 : Arr1 2)
    (p : Fin 256) (l : Fin 2) : EReal :=
  (∑ k : Fin 64, hiddenAt S cnt W1 b1 p k * W2 (ix2 l k)) + b2 (ix1 l)

/-- A row's maximum, started from -inf and joined with -inf once more. -/
def rowMax {n : Nat} (z : Fin n → EReal) : EReal :=
  max negInf ((Finset.univ : Finset (Fin n)).fold max negInf z)

/-- The softmax of a row at entry l: exp(z_l - max) over the sum of the exp(z_j - max). -/
def softmaxAt {n : Nat} (z : Fin n → EReal) (l : Fin n) : EReal :=
  Ideal.div (Ideal.exp (z l - rowMax z)) (∑ j : Fin n, Ideal.exp (z j - rowMax z))

/-- The classifier's output: per graph, the softmax of its two logits. -/
def classify (S : Arr2 256 128) (cnt : Arr1 256) (W1 : Arr2 64 128) (b1 : Arr1 64) (W2 : Arr2 2 64) (b2 : Arr1 2) : Arr2 256 2 :=
  fun i => softmaxAt (fun l : Fin 2 => logitAt S cnt W1 b1 W2 b2 (i 0) l) (i 1)

end Cert.Spec

end
-- ==== Proof.Chain.lean ====
/-
  The network as one function of the gathered embedding rows and the arguments, and the reference's stages that
  both programs share.

  Between the dense stages both programs run the same host operations: every edge gathers its source node's row,
  scales it by the edge weight and adds it into its destination node's row (`agg`); every node's row is added into
  its graph's row (`pool`); every node adds one into its graph's count.  These are carried as whole functions of the
  array going in — which entries they read depends on the index arguments, and nothing here needs to know.  With
  them the network is: rescale the rows, two layers each fed by `agg` of the previous features, pool, classify.
-/
import proofs.«146041_j27530740367556_1_alg».proof.Proof.Spec
import proofs.«146041_j27530740367556_1_alg».proof.Proof.Gen.ReferenceIdeal.Read

set_option maxRecDepth 16384

noncomputable section

namespace Cert.ReferenceIdeal.Chain

open Cert.ReferenceIdeal Cert.ReferenceIdeal.Read Idealize.ShloMosaic Idealize.ShloMosaic.TcCoe Idealize.SL.Sem

variable (x0 : S100000.Idx → BitVec 32) (x1 : S2x1600000.Idx → BitVec 32) (x2 : S1600000.Idx → EReal) (x3 : S100000.Idx → BitVec 32)
  (x4 : S10000x128.Idx → EReal) (x5 : S128x128.Idx → EReal) (x6 : S128.Idx → EReal) (x7 x8 : S128x128.Idx → EReal)
  (x9 : S128.Idx → EReal) (x10 : S128x128.Idx → EReal) (x11 : S64x128.Idx → EReal) (x12 : S64.Idx → EReal)
  (x13 : S2x64.Idx → EReal) (x14 : S2.Idx → EReal)

/-- The weighted neighbourhood sums of node features h: every edge's source row, times the edge's weight, added into
    the edge's destination row, starting from zero. -/
def agg (h : S100000x128.Idx → EReal) (x1 : S2x1600000.Idx → BitVec 32) (x2 : S1600000.Idx → EReal) : S100000x128.Idx → EReal :=
  Host.scatterAdd (F := Ideal) (φ := .f32) scatter_S100000x128_S1600000x1_S1600000x128_1_0_0_1 (val_main_v30 (F := Ideal)) (val_main_v31 (F := Ideal) x1)
    (mulf (F := Ideal) (Host.gather gather_S100000x128_S1600000x1_S1600000x128_1_0_n_n_0_1_1128 h (val_main_v25 (F := Ideal) x1)) (val_main_v28 (F := Ideal) x2))

/-- The per-graph sums of node features h: every node's row added into its graph's row, starting from zero. -/
def pool (h : S100000x128.Idx → EReal) (x3 : S100000.Idx → BitVec 32) : S256x128.Idx → EReal :=
  Host.scatterAdd (F := Ideal) (φ := .f32) scatter_S256x128_S100000x1_S100000x128_1_0_0_1 (val_main_v64 (F := Ideal)) (val_main_v65 (F := Ideal) x3) h

/-- The network on gathered embedding rows g. -/
def net (g : S100000x128.Idx → EReal) (x1 : S2x1600000.Idx → BitVec 32) (x2 : S1600000.Idx → EReal) (x3 : S100000.Idx → BitVec 32)
    (x5 : S128x128.Idx → EReal) (x6 : S128.Idx → EReal) (x7 x8 : S128x128.Idx → EReal) (x9 : S128.Idx → EReal) (x10 : S128x128.Idx → EReal)
    (x11 : S64x128.Idx → EReal) (x12 : S64.Idx → EReal) (x13 : S2x64.Idx → EReal) (x14 : S2.Idx → EReal) : S256x2.Idx → EReal :=
  Cert.Spec.classify
    (pool (Cert.Spec.layer (agg (Cert.Spec.layer (agg (Cert.Spec.normalize g) x1 x2) (Cert.Spec.normalize g) x5 x6 x7) x1 x2)
      (Cert.Spec.layer (agg (Cert.Spec.normalize g) x1 x2) (Cert.Spec.normalize g) x5 x6 x7) x8 x9 x10) x3)
    (val_main_v70 (F := Ideal) x3) x11 x12 x13 x14

/-- The first layer's aggregated array is `agg` of the rescaled rows. -/
theorem v32_eq : val_main_v32 (F := Ideal) x0 x1 x2 x4 = agg (val_main_v19 (F := Ideal) x0 x4) x1 x2 := rfl

/-- The second layer's aggregated array is `agg` of the first layer's output: the same operations under other names. -/
theorem v54_eq : val_main_v54 (F := Ideal) x0 x1 x2 x4 x5 x6 x7 = agg (val_main_v41 (F := Ideal) x0 x1 x2 x4 x5 x6 x7) x1 x2 := rfl

/-- The pooled sums are `pool` of the second layer's output. -/
theorem v66_eq : val_main_v66 (F := Ideal) x0 x1 x2 x3 x4 x5 x6 x7 x8 x9 x10
    = pool (val_main_v63 (F := Ideal) x0 x1 x2 x4 x5 x6 x7 x8 x9 x10) x3 := rfl

end Cert.ReferenceIdeal.Chain

end
-- ==== Proof.Fold.lean ====
/-
  The kernel program's buffers followed through its eight segments.

  The program alternates stretches of host operations with four kernel regions.  A stretch leaves every buffer it
  does not write as it found it and puts each of its results at its operation applied to the contents before the
  stretch; a region leaves every buffer other than its own arrays as it found it.  Followed from the launch memory
  this gives, at each region's entry, what each of its operand arrays holds in terms of the argument arrays and of
  the previous region's result array: the index arrays and the edge weights reach the gather and scatter stretches
  unchanged; each weight matrix reaches its region transposed (and changed to a narrower float format, which at the
  exact reading is the identity), so reading it with its coordinates exchanged gives the argument back; each
  aggregated array is the shared `agg` of the previous features, the pooled sums the shared `pool`, the counts
  column the reference's count vector as a column.
-/
import proofs.«146041_j27530740367556_1_alg».proof.Proof.Spec
import proofs.«146041_j27530740367556_1_alg».proof.Proof.Chain
import proofs.«146041_j27530740367556_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v10 val_main_v70)
open Cert.ReferenceIdeal.Chain (agg pool)

variable (m : (ℓ : Loc nD τ sig) → Buf (Elt Ideal) ℓ) (ρ : Dev nD → PrngReg) (c : Dev nD)

/-- A stretch of host operations leaves a buffer none of them writes as it found it. -/
local macro "uw" ops:ident b:ident : term => `(StableHlo.after_of_forall_not_mem (b := Proc.devRef .tc $b) _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-! ## A transposed matrix read with its coordinates exchanged is the matrix -/

theorem transposed_transpose {a b : Nat} (x : (⟨2, ![a, b]⟩ : Shape).Idx → EReal)
    (h : (⟨2, ![a, b]⟩ : Shape).Transposes [1, 0] (⟨2, ![b, a]⟩ : Shape)) :
    Cert.Spec.transposed (transpose (⟨2, ![b, a]⟩ : Shape) [1, 0] x h) = x := by
  funext i
  unfold Cert.Spec.transposed
  exact transpose_apply [1, 0] x h (ix2 (i 1) (i 0)) i (fun d => match d with
    | ⟨0, _⟩ => rfl
    | ⟨1, _⟩ => rfl)

/-! ## Up to the first region: the gathered rows, the edge endpoints, the untouched arguments -/

theorem w1_v10 : (W1 m ρ c (Proc.devRef .tc main_v10) : S100000x128.Idx → EReal)
    = val_main_v10 (F := Ideal) (m ((c : Thread nD τ).loc main_arg0)) (m ((c : Thread nD τ).loc main_arg4)) := by
  show StableHlo.after hostOps0 (W0 m ρ c) (Proc.devRef .tc main_v10) = _
  after_results
  rfl

theorem w2_v1 : (W2 m ρ c (Proc.devRef .tc main_v1) : S1600000.Idx → BitVec 32)
    = val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

theorem w2_v3 : (W2 m ρ c (Proc.devRef .tc main_v3) : S1600000.Idx → BitVec 32)
    = val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

theorem w2_arg2 : W2 m ρ c (Proc.devRef .tc main_arg2) = m ((c : Thread nD τ).loc main_arg2) :=
  (W2_of_ne m ρ c main_arg2 (by decide)).trans (uw hostOps0 main_arg2)
theorem w2_arg3 : W2 m ρ c (Proc.devRef .tc main_arg3) = m ((c : Thread nD τ).loc main_arg3) :=
  (W2_of_ne m ρ c main_arg3 (by decide)).trans (uw hostOps0 main_arg3)
theorem w2_arg5 : W2 m ρ c (Proc.devRef .tc main_arg5) = m ((c : Thread nD τ).loc main_arg5) :=
  (W2_of_ne m ρ c main_arg5 (by decide)).trans (uw hostOps0 main_arg5)
theorem w2_arg6 : W2 m ρ c (Proc.devRef .tc main_arg6) = m ((c : Thread nD τ).loc main_arg6) :=
  (W2_of_ne m ρ c main_arg6 (by decide)).trans (uw hostOps0 main_arg6)
theorem w2_arg7 : W2 m ρ c (Proc.devRef .tc main_arg7) = m ((c : Thread nD τ).loc main_arg7) :=
  (W2_of_ne m ρ c main_arg7 (by decide)).trans (uw hostOps0 main_arg7)
theorem w2_arg8 : W2 m ρ c (Proc.devRef .tc main_arg8) = m ((c : Thread nD τ).loc main_arg8) :=
  (W2_of_ne m ρ c main_arg8 (by decide)).trans (uw hostOps0 main_arg8)
theorem w2_arg9 : W2 m ρ c (Proc.devRef .tc main_arg9) = m ((c : Thread nD τ).loc main_arg9) :=
  (W2_of_ne m ρ c main_arg9 (by decide)).trans (uw hostOps0 main_arg9)
theorem w2_arg10 : W2 m ρ c (Proc.devRef .tc main_arg10) = m ((c : Thread nD τ).loc main_arg10) :=
  (W2_of_ne m ρ c main_arg10 (by decide)).trans (uw hostOps0 main_arg10)
theorem w2_arg11 : W2 m ρ c (Proc.devRef .tc main_arg11) = m ((c : Thread nD τ).loc main_arg11) :=
  (W2_of_ne m ρ c main_arg11 (by decide)).trans (uw hostOps0 main_arg11)
theorem w2_arg12 : W2 m ρ c (Proc.devRef .tc main_arg12) = m ((c : Thread nD τ).loc main_arg12) :=
  (W2_of_ne m ρ c main_arg12 (by decide)).trans (uw hostOps0 main_arg12)
theorem w2_arg13 : W2 m ρ c (Proc.devRef .tc main_arg13) = m ((c : Thread nD τ).loc main_arg13) :=
  (W2_of_ne m ρ c main_arg13 (by decide)).trans (uw hostOps0 main_arg13)
theorem w2_arg14 : W2 m ρ c (Proc.devRef .tc main_arg14) = m ((c : Thread nD τ).loc main_arg14) :=
  (W2_of_ne m ρ c main_arg14 (by decide)).trans (uw hostOps0 main_arg14)

/-- The first region's result array is what its grid points wrote back. -/
theorem w2_v11 : W2 m ρ c (Proc.devRef .tc main_v11) = (dat0 (F := Ideal) (V1 m ρ) c).arrAt 1 cfg0.N := W2_arr m ρ c 1

/-! ## The first layer's operands -/

theorem w3_v36 : (W3 m ρ c (Proc.devRef .tc main_v36) : S100000x128.Idx → EReal)
    = agg (W2 m ρ c (Proc.devRef .tc main_v11)) (m ((c : Thread nD τ).loc main_arg1)) (m ((c : Thread nD τ).loc main_arg2)) := by
  show StableHlo.after hostOps1 (W2 m ρ c) (Proc.devRef .tc main_v36) = _
  after_results_simp
  rw [w2_v1 m ρ c, w2_v3 m ρ c, w2_arg2 m ρ c]
  rfl

theorem w3_v11 : W3 m ρ c (Proc.devRef .tc main_v11) = W2 m ρ c (Proc.devRef .tc main_v11) := uw hostOps1 main_v11

theorem w3_arg6 : W3 m ρ c (Proc.devRef .tc main_arg6) = m ((c : Thread nD τ).loc main_arg6) :=
  (uw hostOps1 main_arg6).trans (w2_arg6 m ρ c)

theorem w3_v13 : Cert.Spec.transposed (W3 m ρ c (Proc.devRef .tc main_v13) : S128x128.Idx → EReal) = m ((c : Thread nD τ).loc main_arg5) := by
  have e : (W3 m ρ c (Proc.devRef .tc main_v13) : S128x128.Idx → EReal)
      = transpose S128x128 [1, 0] (m ((c : Thread nD τ).loc main_arg5)) transposes_S128x128_S128x128_1_0 := by
    show StableHlo.after hostOps1 (W2 m ρ c) (Proc.devRef .tc main_v13) = _
    after_results_simp
    rw [w2_arg5 m ρ c]
    rfl
  rw [e]; exact transposed_transpose _ _

theorem w3_v15 : Cert.Spec.transposed (W3 m ρ c (Proc.devRef .tc main_v15) : S128x128.Idx → EReal) = m ((c : Thread nD τ).loc main_arg7) := by
  have e : (W3 m ρ c (Proc.devRef .tc main_v15) : S128x128.Idx → EReal)
      = transpose S128x128 [1, 0] (m ((c : Thread nD τ).loc main_arg7)) transposes_S128x128_S128x128_1_0 := by
    show StableHlo.after hostOps1 (W2 m ρ c) (Proc.devRef .tc main_v15) = _
    after_results_simp
    rw [w2_arg7 m ρ c]
    rfl
  rw [e]; exact transposed_transpose _ _

theorem w3_v17 : Cert.Spec.transposed (W3 m ρ c (Proc.devRef .tc main_v17) : S128x128.Idx → EReal) = m ((c : Thread nD τ).loc main_arg8) := by
  have e : (W3 m ρ c (Proc.devRef .tc main_v17) : S128x128.Idx → EReal)
      = transpose S128x128 [1, 0] (m ((c : Thread nD τ).loc main_arg8)) transposes_S128x128_S128x128_1_0 := by
    show StableHlo.after hostOps1 (W2 m ρ c) (Proc.devRef .tc main_v17) = _
    after_results_simp
    rw [w2_arg8 m ρ c]
    rfl
  rw [e]; exact transposed_transpose _ _

theorem w3_v19 : Cert.Spec.transposed (W3 m ρ c (Proc.devRef .tc main_v19) : S128x128.Idx → EReal) = m ((c : Thread nD τ).loc main_arg10) := by
  have e : (W3 m ρ c (Proc.devRef .tc main_v19) : S128x128.Idx → EReal)
      = transpose S128x128 [1, 0] (m ((c : Thread nD τ).loc main_arg10)) transposes_S128x128_S128x128_1_0 := by
    show StableHlo.after hostOps1 (W2 m ρ c) (Proc.devRef .tc main_v19) = _
    after_results_simp
    rw [w2_arg10 m ρ c]
    rfl
  rw [e]; exact transposed_transpose _ _

theorem w3_v21 : Cert.Spec.transposed (W3 m ρ c (Proc.devRef .tc main_v21) : S128x64.Idx → EReal) = m ((c : Thread nD τ).loc main_arg11) := by
  have e : (W3 m ρ c (Proc.devRef .tc main_v21) : S128x64.Idx → EReal)
      = transpose S128x64 [1, 0] (m ((c : Thread nD τ).loc main_arg11)) transposes_S64x128_S128x64_1_0 := by
    show StableHlo.after hostOps1 (W2 m ρ c) (Proc.devRef .tc main_v21) = _
    after_results_simp
    rw [w2_arg11 m ρ c]
    rfl
  rw [e]; exact transposed_transpose _ _

theorem w3_v23 : Cert.Spec.transposed (W3 m ρ c (Proc.devRef .tc main_v23) : S64x2.Idx → EReal) = m ((c : Thread nD τ).loc main_arg13) := by
  have e : (W3 m ρ c (Proc.devRef .tc main_v23) : S64x2.Idx → EReal)
      = transpose S64x2 [1, 0] (m ((c : Thread nD τ).loc main_arg13)) transposes_S2x64_S64x2_1_0 := by
    show StableHlo.after hostOps1 (W2 m ρ c) (Proc.devRef .tc main_v23) = _
    after_results_simp
    rw [w2_arg13 m ρ c]
    rfl
  rw [e]; exact transposed_transpose _ _

/-- The second region's result array is what its grid points wrote back. -/
theorem w4_v37 : W4 m ρ c (Proc.devRef .tc main_v37) = (dat1 (F := Ideal) (V3 m ρ) c).arrAt 5 cfg1.N := W4_arr m ρ c 5

/-! ## The second layer's operands -/

theorem w4_v1 : (W4 m ρ c (Proc.devRef .tc main_v1) : S1600000.Idx → BitVec 32)
    = val_main_v1 (F := Ideal) (m ((c : Thread nD τ).loc main_arg1)) :=
  (W4_of_ne m ρ c main_v1 (by decide)).trans ((uw hostOps1 main_v1).trans (w2_v1 m ρ c))
theorem w4_v3 : (W4 m ρ c (Proc.devRef .tc main_v3) : S1600000.Idx → BitVec 32)
    = val_main_v3 (F := Ideal) (m ((c : Thread nD τ).loc main_arg1)) :=
  (W4_of_ne m ρ c main_v3 (by decide)).trans ((uw hostOps1 main_v3).trans (w2_v3 m ρ c))
theorem w4_arg2 : W4 m ρ c (Proc.devRef .tc main_arg2) = m ((c : Thread nD τ).loc main_arg2) :=
  (W4_of_ne m ρ c main_arg2 (by decide)).trans ((uw hostOps1 main_arg2).trans (w2_arg2 m ρ c))
theorem w4_arg3 : W4 m ρ c (Proc.devRef .tc main_arg3) = m ((c : Thread nD τ).loc main_arg3) :=
  (W4_of_ne m ρ c main_arg3 (by decide)).trans ((uw hostOps1 main_arg3).trans (w2_arg3 m ρ c))
theorem w4_arg9 : W4 m ρ c (Proc.devRef .tc main_arg9) = m ((c : Thread nD τ).loc main_arg9) :=
  (W4_of_ne m ρ c main_arg9 (by decide)).trans ((uw hostOps1 main_arg9).trans (w2_arg9 m ρ c))
theorem w4_arg12 : W4 m ρ c (Proc.devRef .tc main_arg12) = m ((c : Thread nD τ).loc main_arg12) :=
  (W4_of_ne m ρ c main_arg12 (by decide)).trans ((uw hostOps1 main_arg12).trans (w2_arg12 m ρ c))
theorem w4_arg14 : W4 m ρ c (Proc.devRef .tc main_arg14) = m ((c : Thread nD τ).loc main_arg14) :=
  (W4_of_ne m ρ c main_arg14 (by decide)).trans ((uw hostOps1 main_arg14).trans (w2_arg14 m ρ c))

theorem w5_v50 : (W5 m ρ c (Proc.devRef .tc main_v50) : S100000x128.Idx → EReal)
    = agg (W4 m ρ c (Proc.devRef .tc main_v37)) (m ((c : Thread nD τ).loc main_arg1)) (m ((c : Thread nD τ).loc main_arg2)) := by
  show StableHlo.after hostOps2 (W4 m ρ c) (Proc.devRef .tc main_v50) = _
  after_results_simp
  rw [w4_v1 m ρ c, w4_v3 m ρ c, w4_arg2 m ρ c]
  rfl

theorem w5_v37 : W5 m ρ c (Proc.devRef .tc main_v37) = W4 m ρ c (Proc.devRef .tc main_v37) := uw hostOps2 main_v37

theorem w5_arg9 : W5 m ρ c (Proc.devRef .tc main_arg9) = m ((c : Thread nD τ).loc main_arg9) :=
  (uw hostOps2 main_arg9).trans (w4_arg9 m ρ c)

theorem w5_v17 : Cert.Spec.transposed (W5 m ρ c (Proc.devRef .tc main_v17) : S128x128.Idx → EReal) = m ((c : Thread nD τ).loc main_arg8) := by
  rw [show W5 m ρ c (Proc.devRef .tc main_v17) = W3 m ρ c (Proc.devRef .tc main_v17) from
    (uw hostOps2 main_v17).trans (W4_of_ne m ρ c main_v17 (by decide))]
  exact w3_v17 m ρ c

theorem w5_v19 : Cert.Spec.transposed (W5 m ρ c (Proc.devRef .tc main_v19) : S128x128.Idx → EReal) = m ((c : Thread nD τ).loc main_arg10) := by
  rw [show W5 m ρ c (Proc.devRef .tc main_v19) = W3 m ρ c (Proc.devRef .tc main_v19) from
    (uw hostOps2 main_v19).trans (W4_of_ne m ρ c main_v19 (by decide))]
  exact w3_v19 m ρ c

/-- The third region's result array is what its grid points wrote back. -/
theorem w6_v51 : W6 m ρ c (Proc.devRef .tc main_v51) = (dat2 (F := Ideal) (V5 m ρ) c).arrAt 5 cfg2.N := W6_arr m ρ c 5

/-! ## The classifier's operands -/

theorem w6_arg3 : W6 m ρ c (Proc.devRef .tc main_arg3) = m ((c : Thread nD τ).loc main_arg3) :=
  (W6_of_ne m ρ c main_arg3 (by decide)).trans ((uw hostOps2 main_arg3).trans (w4_arg3 m ρ c))

theorem w7_v54 : (W7 m ρ c (Proc.devRef .tc main_v54) : S256x128.Idx → EReal)
    = pool (W6 m ρ c (Proc.devRef .tc main_v51)) (m ((c : Thread nD τ).loc main_arg3)) := by
  show StableHlo.after hostOps3 (W6 m ρ c) (Proc.devRef .tc main_v54) = _
  after_results
  rw [w6_arg3 m ρ c]
  rfl

theorem w7_v59 : Cert.Spec.colOf (W7 m ρ c (Proc.devRef .tc main_v59) : S256x1.Idx → EReal)
    = val_main_v70 (F := Ideal) (m ((c : Thread nD τ).loc main_arg3)) := by
  have e : (W7 m ρ c (Proc.devRef .tc main_v59) : S256x1.Idx → EReal)
      = broadcastInDim S256x1 ![0] bcast_S256_S256x1_0 (val_main_v70 (F := Ideal) (m ((c : Thread nD τ).loc main_arg3))) := by
    show StableHlo.after hostOps3 (W6 m ρ c) (Proc.devRef .tc main_v59) = _
    after_results
    rw [w6_arg3 m ρ c]
    rfl
  rw [e]
  generalize val_main_v70 (F := Ideal) (m ((c : Thread nD τ).loc main_arg3)) = y
  funext i
  unfold Cert.Spec.colOf
  exact broadcastInDim_apply _ bcast_S256_S256x1_0 y (ix2 (i 0) (0 : Fin 1)) i (fun a => match a with
    | ⟨0, _⟩ => by show (i 0).val = if (256 : Nat) = 1 then 0 else (i 0).val; rw [if_neg (by decide)])

theorem w7_v21 : Cert.Spec.transposed (W7 m ρ c (Proc.devRef .tc main_v21) : S128x64.Idx → EReal) = m ((c : Thread nD τ).loc main_arg11) := by
  rw [show W7 m ρ c (Proc.devRef .tc main_v21) = W3 m ρ c (Proc.devRef .tc main_v21) from
    (uw hostOps3 main_v21).trans ((W6_of_ne m ρ c main_v21 (by decide)).trans
      ((uw hostOps2 main_v21).trans (W4_of_ne m ρ c main_v21 (by decide))))]
  exact w3_v21 m ρ c

theorem w7_v23 : Cert.Spec.transposed (W7 m ρ c (Proc.devRef .tc main_v23) : S64x2.Idx → EReal) = m ((c : Thread nD τ).loc main_arg13) := by
  rw [show W7 m ρ c (Proc.devRef .tc main_v23) = W3 m ρ c (Proc.devRef .tc main_v23) from
    (uw hostOps3 main_v23).trans ((W6_of_ne m ρ c main_v23 (by decide)).trans
      ((uw hostOps2 main_v23).trans (W4_of_ne m ρ c main_v23 (by decide))))]
  exact w3_v23 m ρ c

theorem w7_arg12 : W7 m ρ c (Proc.devRef .tc main_arg12) = m ((c : Thread nD τ).loc main_arg12) :=
  (uw hostOps3 main_arg12).trans ((W6_of_ne m ρ c main_arg12 (by decide)).trans ((uw hostOps2 main_arg12).trans (w4_arg12 m ρ c)))

theorem w7_arg14 : W7 m ρ c (Proc.devRef .tc main_arg14) = m ((c : Thread nD τ).loc main_arg14) :=
  (uw hostOps3 main_arg14).trans ((W6_of_ne m ρ c main_arg14 (by decide)).trans ((uw hostOps2 main_arg14).trans (w4_arg14 m ρ c)))

/-- The last region's result array is what its one grid point wrote back. -/
theorem w8_v60 : W8 m ρ c (Proc.devRef .tc main_v60) = (dat3 (F := Ideal) (V7 m ρ) c).arrAt 6 cfg3.N := W8_arr m ρ c 6

end Cert.KernelIdeal.Fold

end
-- ==== Proof.RegionNorm.lean ====
/-
  The first kernel region, read as a whole array.

  The region walks the 100000 x 128 embedding array in 20 blocks of 5000 whole rows.  On a block it squares
  every entry, sums each row's 128 squares along the lanes, takes the square root of the row sums as a
  column, adds the small constant, inverts, caps the factor at one, lays the column back along the lanes and
  multiplies it into the block.  Every row lies whole inside one block, so entry (p, q) of a block depends only
  on row p of that block, and is that row's entry q times min(1, 1 / (sqrt(sum_k row_k^2) + eps)): the
  specification's rescaled row.  Block t holds rows 5000 t ... 5000 t + 4999 of the array, on the input side and
  on the output side alike, and row r is written by block r / 5000; the 20 blocks cover the array, so after the
  region the result array is the rescaled input array.  No algebraic law is needed beyond reading each
  operation at an index.
-/
import proofs.«146041_j27530740367556_1_alg».proof.Proof.Gen.KernelIdeal.Frame
import proofs.«146041_j27530740367556_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.RegionNorm
open Cert.KernelIdeal Cert.KernelIdeal.Gen

/-! ## The block's arithmetic at an entry -/

/-- A vector of 5000 row sums cast to a column reads, at row p, the vector's entry p. -/
theorem column_at (v : FVec Ideal S5000 .f32) (p : Fin 5000) :
    shapeCast S5000x1 v shapeCasts_S5000_S5000x1 (ix2 p (0 : Fin 1)) = v (ix1 p) :=
  shapeCast_apply v shapeCasts_S5000_S5000x1 (ix2 p (0 : Fin 1)) (ix1 p)
    (by rw [Shape.rowMajor_val_two, Shape.rowMajor_val_one]; show p.val = p.val * 1 + 0; omega)

/-- A column laid along the 128 lanes reads, at (p, q), the column's row p. -/
theorem lanes_at (c : FVec Ideal S5000x1 .f32) (p : Fin 5000) (q : Fin 128) :
    broadcastTo S5000x128 c broadcasts_S5000x1_S5000x128 (ix2 p q) = c (ix2 p (0 : Fin 1)) :=
  broadcastTo_apply c broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The lane sum of a block, read at row p, is the sum of that row's 128 entries (the sum starts from the
    neutral element of addition, so nothing is added to it). -/
theorem rowsum_at (y : FVec Ideal S5000x128 .f32) (hφ : FKind.Formats FTy.f32)
    (hacc : (0x00000000#32 : BitVec FTy.f32.bits) = FKind.add.neutral FTy.f32 hφ) (p : Fin 5000) :
    multiReduction (F := Ideal) .add [1] S5000 y 0x00000000#32 reduces_S5000x128_S5000 hφ hacc (ix1 p)
      = ∑ k : Fin 128, y (ix2 p k) := by
  refine (Ideal.multiReduction_add_single y 0x00000000#32 reduces_S5000x128_S5000 hφ hacc (ix1 p)).trans ?_
  refine Finset.sum_congr rfl fun k _ => congrArg y ?_
  funext a
  apply Fin.ext
  match a with
  | ⟨0, _⟩ => rfl
  | ⟨1, _⟩ => rfl

/-- The square root of a vector, read at an entry. -/
theorem sqrt_at {s : Shape} (v : FVec Ideal s .f32) (i : s.Idx) : sqrt v i = Ideal.sqrt (v i) := rfl

/-- Entry (p, q) of what the region computes from a block x: row p of x rescaled, at q. -/
theorem pay_at (x : Vec Ideal S5000x128 .f32) (p : Fin 5000) (q : Fin 128) :
    k0_pay1 (F := Ideal) x (ix2 p q) = Cert.Spec.normAt (fun k : Fin 128 => (x (ix2 p k) : EReal)) q := by
  unfold k0_pay1 Cert.Spec.normAt
  rw [shapeCast_self x shapeCasts_S5000x128_S5000x128]
  simp only [mulf_apply, lanes_at, minimumf_apply, broadcast_apply, divf_apply, addf_apply, sqrt_at, column_at,
    Ideal.ofBits_def]
  exact congrArg (fun s : EReal => x (ix2 p q) * min Cert.Spec.one (Ideal.div Cert.Spec.one (Ideal.sqrt s + Cert.Spec.eps)))
    (rowsum_at (mulf x x) _ _ p)

/-- The same at any index j of the block: row (j 0) of x rescaled, at (j 1). -/
theorem pay_idx (x : Vec Ideal S5000x128 .f32) (j : S5000x128.Idx) :
    k0_pay1 (F := Ideal) x j = Cert.Spec.normAt (fun k : Fin 128 => (x (ix2 (j 0) k) : EReal)) (j 1) := by
  obtain ⟨p, q, rfl⟩ : ∃ (p : Fin 5000) (q : Fin 128), j = ix2 p q := ⟨j 0, j 1, eq_ix2 j⟩
  exact pay_at x p q

/-! ## From the 20 blocks to the array -/

/-- The contents of the TensorCore's buffers when the region is entered: any at all. -/
abbrev VT := (c : Dev nD) → (b : Ref sig .tc) → Buf (Elt Ideal) ((c : Thread nD τ).loc b)

/-- The body's one load and one store start at the block's corner. -/
theorem offsets_zero : (![0, 0] : Fin 2 → Nat) = fun _ => 0 := funext fun a => by fin_cases a <;> rfl

/-- At grid point t both windows sit at block row t and block column 0: decided over the 20 points. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point t writes back is block t of the rescaled input array: the output block's entry j sits at
    array row 5000 t + (j 0), and the row of the input block it was computed from is the same array row. -/
theorem flushed_eq (V : VT) (c : Dev nD) (t : Fin cfg0.N) :
    (dat0 (F := Ideal) V c).flushed 1 t
      = ((cfg0.win 1).blk t).view.read (Elt Ideal) (Cert.Spec.normalize (V c main_v10 : S100000x128.Idx → EReal)) := by
  show (cfg0.win 1).cut (grid0.coords t) ((dat0 (F := Ideal) V c).after 1 t) = _
  rw [after0_1]
  unfold out0_1
  rw [View.canon_unit_zero offsets_zero]
  simp only [View.ld_unit_zero (S := S5000x128) offsets_zero]
  funext j
  show k0_pay1 (F := Ideal) (iblk0 V c 0 t) j
    = Cert.Spec.normalize (V c main_v10 : S100000x128.Idx → EReal) (((cfg0.win 1).blk t).view.emb j)
  refine (pay_idx (iblk0 V c 0 t) j).trans ?_
  unfold Cert.Spec.normalize
  obtain ⟨e00, e01, e10, e11⟩ := block_indices t
  -- the lane coordinate is unchanged by the block's embedding (block column 0)
  have h1 : (((cfg0.win 1).blk t).view.emb j) 1 = j 1 :=
    Fin.ext (by show win0_1.index t (1 : Fin 2) * 128 + 1 * (j 1).val = (j 1).val; omega)
  -- entry k of the input block's row (j 0) is entry k of the array row the output entry sits in
  have h0 : ∀ k : Fin 128, (iblk0 V c 0 t) (ix2 (j 0) k)
      = (V c main_v10 : S100000x128.Idx → EReal) (ix2 ((((cfg0.win 1).blk t).view.emb j) 0) k) := fun k => by
    show (V c main_v10 : S100000x128.Idx → EReal) (((cfg0.win 0).blk t).view.emb (ix2 (j 0) k)) = _
    refine congrArg (V c main_v10 : S100000x128.Idx → EReal) (funext fun a => Fin.ext ?_)
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 128 + 1 * k.val = k.val; omega
  exact (congrArg (fun r => Cert.Spec.normAt r (j 1)) (funext h0)).trans (congrArg (Cert.Spec.normAt _) h1.symm)

/-- An index of the array is in point t's output block iff each coordinate is in the block's range. -/
theorem mem_block (t : Fin cfg0.N) (i : S100000x128.Idx) :
    i ∈ ((cfg0.win 1).blk t).view.set ↔ ∀ a : Fin 2, win0_1.index t a * S5000x128.size a ≤ (i a).val
      ∧ (i a).val < win0_1.index t a * S5000x128.size a + S5000x128.size a := by
  show i ∈ ((View.whole main_v11).slice (win0_1.rect t)).set ↔ _
  rw [View.set_slice_whole, Rect.mem_set_unit]
  exact Iff.rfl

/-- Every entry of the array is written: row r by grid point r / 5000. -/
theorem covered (i : S100000x128.Idx) :
    ∃ t : Fin cfg0.N, (cfg0.win 1).flush t = true ∧ i ∈ ((cfg0.win 1).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, e10, e11⟩ := block_indices t
  refine ⟨t, flush0_1 t, ?_⟩
  rw [mem_block]
  intro a
  match a with
  | ⟨0, _⟩ =>
    show win0_1.index t (0 : Fin 2) * 5000 ≤ (i 0).val ∧ (i 0).val < win0_1.index t (0 : Fin 2) * 5000 + 5000
    omega
  | ⟨1, _⟩ =>
    show win0_1.index t (1 : Fin 2) * 128 ≤ (i 1).val ∧ (i 1).val < win0_1.index t (1 : Fin 2) * 128 + 128
    omega

/-- After the region its result array holds the input array's rows rescaled to norm at most one. -/
theorem norm_arr (V : VT) (c : Dev nD) :
    ((dat0 (F := Ideal) V c).arrAt 1 cfg0.N : S100000x128.Idx → EReal)
      = Cert.Spec.normalize (V c main_v10 : S100000x128.Idx → EReal) :=
  (dat0 (F := Ideal) V c).arrAt_eq_of_cover 1 (Cert.Spec.normalize (V c main_v10 : S100000x128.Idx → EReal))
    (fun t _ => flushed_eq V c t) covered

end Cert.KernelIdeal.RegionNorm

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«146041_j27530740367556_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.RegionLayer.lean ====
/-
  The two graph-convolution layers as the four-region program computes them.

  Each of the two layer regions walks twenty blocks of 5000 rows.  At a block it holds 5000 rows of the aggregated
  array A and of the node features H, the whole [in, out] weight matrices Wt and Wt' and the bias b, and leaves
  max((A * Wt + H * Wt') + b, 0) in the block's 5000 rows of the result.  Entry (p, j) of a block therefore reads row
  p of the two row blocks, column j of the two weight matrices and b(j).  The specification reads the weights as
  [out, in] matrices (column j of Wt is row j of its transpose) and adds the bias to the first product before the second
  product: the two groupings agree because addition of extended reals is commutative and associative.  Row r of the
  result lies in block r / 5000, so the twenty blocks fill the array.
-/
import proofs.«146041_j27530740367556_1_alg».proof.Proof.Spec
import proofs.«146041_j27530740367556_1_alg».proof.Proof.Gen.KernelIdeal.Frame
import proofs.«146041_j27530740367556_1_alg».proof.Proof.LibPlainDot
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.RegionLayer

open Cert.KernelIdeal Cert.KernelIdeal.Gen Idealize.ShloMosaic.ValueIdx Cert.LibHostRead Cert.LibPlainDot

/-- The entry contents of every buffer, per core. -/
abbrev VT := (c : Dev nD) → (b : Ref sig .tc) → Buf (Elt Ideal) ((c : Thread nD τ).loc b)

/-! ## One block: the body's result at an entry -/

/-- The body's matrix product contracts the second axis of a 5000 x 128 block against the first axis of a 128 x 128
    matrix: rows times columns. -/
theorem dot_plain : PlainDot dot_S5000x128_S128x128_S5000x128_1_0_0_1_n_n where
  hr := rfl
  hs := rfl
  hl0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  hl1 := fun i q => dot_S5000x128_S128x128_S5000x128_1_0_0_1_n_n.lhsIdx_val_of_single rfl i q
  hr0 := fun i q => dot_S5000x128_S128x128_S5000x128_1_0_0_1_n_n.rhsIdx_val_of_single rfl i q
  hr1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- Entry (p, j) of what the body stores: row p of the two row blocks against column j of the two weight matrices,
    the two products added, then the bias at j, then the rectifier. -/
theorem pay_apply (a h : Vec Ideal S5000x128 .f32) (wl wr : Vec Ideal S128x128 .bf16) (b : Vec Ideal S128 .f32)
    (p : Fin 5000) (j : Fin 128) :
    k1_pay1 (F := Ideal) a h wl wr b (ix2 p j)
      = max (((∑ k : Fin 128, a (ix2 p k) * wl (ix2 k j)) + ∑ k : Fin 128, h (ix2 p k) * wr (ix2 k j)) + b (ix1 j))
          Cert.Spec.zero := by
  unfold k1_pay1
  rw [maximumf_apply, addf_apply, addf_apply, broadcast_apply, rowBias_apply]
  rw [vmatmul_apply _ dot_plain, vmatmul_apply _ dot_plain]
  simp only [truncf_apply, shapeCast_self]
  rfl

/-! ## One block against the specification -/

theorem hz2 : (![0, 0] : Fin 2 → Nat) = fun _ => 0 := funext fun a => by fin_cases a <;> rfl
theorem hz1 : (![0] : Fin 1 → Nat) = fun _ => 0 := funext fun a => by fin_cases a; rfl

/-- Entry (p, j) of a block's result is entry i of the specification's layer on the whole arrays, when row p of the
    two row blocks is row i 0 of the arrays, column j of the block's weights is column i 1 of the [in, out] matrices and the
    block's bias at j is the bias at i 1.  Column i 1 of an [in, out] matrix is row i 1 of its transpose; the bias moves
    from after the second product to before it by commutativity and associativity of addition. -/
theorem pay_eq_layer (A H : S100000x128.Idx → EReal) (Wt Wt' : S128x128.Idx → EReal) (bias : S128.Idx → EReal)
    (a h : Vec Ideal S5000x128 .f32) (wl wr : Vec Ideal S128x128 .bf16) (b : Vec Ideal S128 .f32)
    (p : Fin 5000) (j : Fin 128) (i : S100000x128.Idx)
    (ha : ∀ k : Fin 128, a (ix2 p k) = A (ix2 (i 0) k)) (hh : ∀ k : Fin 128, h (ix2 p k) = H (ix2 (i 0) k))
    (hwl : ∀ k : Fin 128, wl (ix2 k j) = Wt (ix2 k (i 1))) (hwr : ∀ k : Fin 128, wr (ix2 k j) = Wt' (ix2 k (i 1)))
    (hb : b (ix1 j) = bias (ix1 (i 1))) :
    k1_pay1 (F := Ideal) a h wl wr b (ix2 p j)
      = Cert.Spec.layer A H (Cert.Spec.transposed Wt) bias (Cert.Spec.transposed Wt') i := by
  rw [pay_apply]
  simp only [ha, hh, hwl, hwr, hb]
  unfold Cert.Spec.layer Cert.Spec.layerAt Cert.Spec.transposed
  rw [add_right_comm]

/-! ## Region 1: from the blocks to the array -/

/-- Where the region's windows sit at grid point t: the two row-block inputs and the result at block t of their
    arrays, the weights and the bias whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row x of the aggregated array's block at point t is row 5000 t + x of the array. -/
theorem blockA1 (V : VT) (c : Dev nD) (t : Fin cfg1.N) (x : S5000x128.Idx) (i : S100000x128.Idx)
    (h0 : (i 0).val = t.val * 5000 + (x 0).val) (h1 : (i 1).val = (x 1).val) :
    (iblk1 V c 0 t : Vec Ideal S5000x128 .f32) x = (V c main_v36 : S100000x128.Idx → EReal) i := by
  obtain ⟨e0, e1, -⟩ := idx_facts1 t
  unfold iblk1
  rw [View.read_apply]
  show V c main_v36 _ = V c main_v36 _
  congr 1
  funext a
  apply Fin.ext
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- Row x of the node features' block at point t is row 5000 t + x of the array. -/
theorem blockH1 (V : VT) (c : Dev nD) (t : Fin cfg1.N) (x : S5000x128.Idx) (i : S100000x128.Idx)
    (h0 : (i 0).val = t.val * 5000 + (x 0).val) (h1 : (i 1).val = (x 1).val) :
    (iblk1 V c 1 t : Vec Ideal S5000x128 .f32) x = (V c main_v11 : S100000x128.Idx → EReal) i := by
  obtain ⟨-, -, e0, e1, -⟩ := idx_facts1 t
  unfold iblk1
  rw [View.read_apply]
  show V c main_v11 _ = V c main_v11 _
  congr 1
  funext a
  apply Fin.ext
  match a with
  | ⟨0, _⟩ => show win1_1.index t (0 : Fin 2) * 5000 + 1 * (x 0).val = (i 0).val; omega
  | ⟨1, _⟩ => show win1_1.index t (1 : Fin 2) * 128 + 1 * (x 1).val = (i 1).val; omega

/-- The first weight window is the whole matrix at every point. -/
theorem blockW1 (V : VT) (c : Dev nD) (t : Fin cfg1.N) (x : S128x128.Idx) :
    (iblk1 V c 2 t : Vec Ideal S128x128 .bf16) x = (V c main_v13 : S128x128.Idx → EReal) x := by
  obtain ⟨-, -, -, -, e0, e1, -⟩ := idx_facts1 t
  unfold iblk1
  rw [View.read_apply]
  show V c main_v13 _ = V c main_v13 _
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The bias window is the whole vector at every point. -/
theorem blockB1 (V : VT) (c : Dev nD) (t : Fin cfg1.N) (x : S128.Idx) :
    (iblk1 V c 3 t : Vec Ideal S128 .f32) x = (V c main_arg6 : S128.Idx → EReal) x := by
  obtain ⟨-, -, -, -, -, -, e0, -⟩ := idx_facts1 t
  unfold iblk1
  rw [View.read_apply]
  show V c main_arg6 _ = V c main_arg6 _
  congr 1
  funext a
  apply Fin.ext
  match a with
  | ⟨0, _⟩ => show win1_3.index t (0 : Fin 1) * 128 + 1 * (x 0).val = (x 0).val; omega

/-- The second weight window is the whole matrix at every point. -/
theorem blockW'1 (V : VT) (c : Dev nD) (t : Fin cfg1.N) (x : S128x128.Idx) :
    (iblk1 V c 4 t : Vec Ideal S128x128 .bf16) x = (V c main_v15 : S128x128.Idx → EReal) x := by
  obtain ⟨-, -, -, -, -, -, -, e0, e1, -⟩ := idx_facts1 t
  unfold iblk1
  rw [View.read_apply]
  show V c main_v15 _ = V c main_v15 _
  congr 1
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- The layer of the specification on the region's operand arrays. -/
abbrev layer1 (V : VT) (c : Dev nD) : S100000x128.Idx → EReal :=
  Cert.Spec.layer (V c main_v36 : S100000x128.Idx → EReal) (V c main_v11 : S100000x128.Idx → EReal)
    (Cert.Spec.transposed (V c main_v13 : S128x128.Idx → EReal)) (V c main_arg6 : S128.Idx → EReal)
    (Cert.Spec.transposed (V c main_v15 : S128x128.Idx → EReal))

/-- What point t writes back is block t of the layer. -/
theorem flushed1_eq (V : VT) (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨-, -, -, -, -, -, -, -, -, e0, e1⟩ := idx_facts1 t
  funext y
  obtain ⟨p, j, rfl⟩ : ∃ (p : Fin 5000) (j : Fin 128), y = ix2 p j := ⟨y 0, y 1, eq_ix2 y⟩
  show k1_pay1 (F := Ideal) (iblk1 V c 0 t) (iblk1 V c 1 t) (iblk1 V c 2 t) (iblk1 V c 4 t) (iblk1 V c 3 t) (ix2 p j)
    = layer1 V c (((cfg1.win 5).blk t).view.emb (ix2 p j))
  have hi0 : ((((cfg1.win 5).blk t).view.emb (ix2 p j)) 0).val = win1_5.index t (0 : Fin 2) * 5000 + 1 * p.val := rfl
  have hi1 : ((((cfg1.win 5).blk t).view.emb (ix2 p j)) 1).val = win1_5.index t (1 : Fin 2) * 128 + 1 * j.val := rfl
  refine pay_eq_layer _ _ _ _ _ (iblk1 V c 0 t) (iblk1 V c 1 t) (iblk1 V c 2 t) (iblk1 V c 4 t) (iblk1 V c 3 t) p j _
    (fun k => blockA1 V c t _ _ ?_ rfl) (fun k => blockH1 V c t _ _ ?_ rfl)
    (fun k => (blockW1 V c t _).trans (congrArg _ ?_)) (fun k => (blockW'1 V c t _).trans (congrArg _ ?_))
    ((blockB1 V c t _).trans (congrArg _ ?_))
  · show ((((cfg1.win 5).blk t).view.emb (ix2 p j)) 0).val = t.val * 5000 + p.val; omega
  · show ((((cfg1.win 5).blk t).view.emb (ix2 p j)) 0).val = t.val * 5000 + p.val; omega
  · funext a; apply Fin.ext
    match a with
    | ⟨0, _⟩ => rfl
    | ⟨1, _⟩ => show j.val = ((((cfg1.win 5).blk t).view.emb (ix2 p j)) 1).val; omega
  · funext a; apply Fin.ext
    match a with
    | ⟨0, _⟩ => rfl
    | ⟨1, _⟩ => show j.val = ((((cfg1.win 5).blk t).view.emb (ix2 p j)) 1).val; omega
  · funext a; apply Fin.ext
    match a with
    | ⟨0, _⟩ => show j.val = ((((cfg1.win 5).blk t).view.emb (ix2 p j)) 1).val; omega

/-- An index of the result is in point t's block when each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Row r of the result lies in the block of point r / 5000: the twenty blocks fill the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, e0, e1⟩ := idx_facts1 ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-! ## Region 2: from the blocks to the array -/

/-- Where the region's windows sit at grid point t: the two row-block inputs and the result at block t of their
    arrays, the weights and the bias whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row x of the aggregated array's block at point t is row 5000 t + x of the array. -/
theorem blockA2 (V : VT) (c : Dev nD) (t : Fin cfg2.N) (x : S5000x128.Idx) (i : S100000x128.Idx)
    (h0 : (i 0).val = t.val * 5000 + (x 0).val) (h1 : (i 1).val = (x 1).val) :
    (iblk2 V c 0 t : Vec Ideal S5000x128 .f32) x = (V c main_v50 : S100000x128.Idx → EReal) i := by
  obtain ⟨e0, e1, -⟩ := idx_facts2 t
  unfold iblk2
  rw [View.read_apply]
  show V c main_v50 _ = V c main_v50 _
  congr 1
  funext a
  apply Fin.ext
  match a with
  | ⟨0, _⟩ => show win2_0.index t (0 : Fin 2) * 5000 + 1 * (x 0).val = (i 0).val; omega
  | ⟨1, _⟩ => show win2_0.index t (1 : Fin 2) * 128 + 1 * (x 1).val = (i 1).val; omega

/-- Row x of the node features' block at point t is row 5000 t + x of the array. -/
theorem blockH2 (V : VT) (c : Dev nD) (t : Fin cfg2.N) (x : S5000x128.Idx) (i : S100000x128.Idx)
    (h0 : (i 0).val = t.val * 5000 + (x 0).val) (h1 : (i 1).val = (x 1).val) :
    (iblk2 V c 1 t : Vec Ideal S5000x128 .f32) x = (V c main_v37 : S100000x128.Idx → EReal) i := by
  obtain ⟨-, -, e0, e1, -⟩ := idx_facts2 t
  unfold iblk2
  rw [View.read_apply]
  show V c main_v37 _ = V c main_v37 _
  congr 1
  funext a
  apply Fin.ext
  match a with
  | ⟨0, _⟩ => show win2_1.index t (0 : Fin 2) * 5000 + 1 * (x 0).val = (i 0).val; omega
  | ⟨1, _⟩ => show win2_1.index t (1 : Fin 2) * 128 + 1 * (x 1).val = (i 1).val; omega

/-- The first weight window is the whole matrix at every point. -/
theorem blockW2 (V : VT) (c : Dev nD) (t : Fin cfg2.N) (x : S128x128.Idx) :
    (iblk2 V c 2 t : Vec Ideal S128x128 .bf16) x = (V c main_v17 : S128x128.Idx → EReal) x := by
  obtain ⟨-, -, -, -, e0, e1, -⟩ := idx_facts2 t
  unfold iblk2
  rw [View.read_apply]
  show V c main_v17 _ = V c main_v17 _
  congr 1
  funext a
  apply Fin.ext
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The bias window is the whole vector at every point. -/
theorem blockB2 (V : VT) (c : Dev nD) (t : Fin cfg2.N) (x : S128.Idx) :
    (iblk2 V c 3 t : Vec Ideal S128 .f32) x = (V c main_arg9 : S128.Idx → EReal) x := by
  obtain ⟨-, -, -, -, -, -, e0, -⟩ := idx_facts2 t
  unfold iblk2
  rw [View.read_apply]
  show V c main_arg9 _ = V c main_arg9 _
  congr 1
  funext a
  apply Fin.ext
  match a with
  | ⟨0, _⟩ => show win2_3.index t (0 : Fin 1) * 128 + 1 * (x 0).val = (x 0).val; omega

/-- The second weight window is the whole matrix at every point. -/
theorem blockW'2 (V : VT) (c : Dev nD) (t : Fin cfg2.N) (x : S128x128.Idx) :
    (iblk2 V c 4 t : Vec Ideal S128x128 .bf16) x = (V c main_v19 : S128x128.Idx → EReal) x := by
  obtain ⟨-, -, -, -, -, -, -, e0, e1, -⟩ := idx_facts2 t
  unfold iblk2
  rw [View.read_apply]
  show V c main_v19 _ = V c main_v19 _
  congr 1
  funext a
  apply Fin.ext
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- The layer of the specification on the region's operand arrays. -/
abbrev layer2 (V : VT) (c : Dev nD) : S100000x128.Idx → EReal :=
  Cert.Spec.layer (V c main_v50 : S100000x128.Idx → EReal) (V c main_v37 : S100000x128.Idx → EReal)
    (Cert.Spec.transposed (V c main_v17 : S128x128.Idx → EReal)) (V c main_arg9 : S128.Idx → EReal)
    (Cert.Spec.transposed (V c main_v19 : S128x128.Idx → EReal))

/-- What point t writes back is block t of the layer. -/
theorem flushed2_eq (V : VT) (c : Dev nD) (t : Fin cfg2.N) :
    (dat2 (F := Ideal) V c).flushed 5 t = ((cfg2.win 5).blk t).view.read (Elt Ideal) (layer2 V c) := by
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S128x128) hz2, View.ld_unit_zero (S := S128) hz1]
  obtain ⟨-, -, -, -, -, -, -, -, -, e0, e1⟩ := idx_facts2 t
  funext y
  obtain ⟨p, j, rfl⟩ : ∃ (p : Fin 5000) (j : Fin 128), y = ix2 p j := ⟨y 0, y 1, eq_ix2 y⟩
  show k1_pay1 (F := Ideal) (iblk2 V c 0 t) (iblk2 V c 1 t) (iblk2 V c 2 t) (iblk2 V c 4 t) (iblk2 V c 3 t) (ix2 p j)
    = layer2 V c (((cfg2.win 5).blk t).view.emb (ix2 p j))
  have hi0 : ((((cfg2.win 5).blk t).view.emb (ix2 p j)) 0).val = win2_5.index t (0 : Fin 2) * 5000 + 1 * p.val := rfl
  have hi1 : ((((cfg2.win 5).blk t).view.emb (ix2 p j)) 1).val = win2_5.index t (1 : Fin 2) * 128 + 1 * j.val := rfl
  refine pay_eq_layer _ _ _ _ _ (iblk2 V c 0 t) (iblk2 V c 1 t) (iblk2 V c 2 t) (iblk2 V c 4 t) (iblk2 V c 3 t) p j _
    (fun k => blockA2 V c t _ _ ?_ rfl) (fun k => blockH2 V c t _ _ ?_ rfl)
    (fun k => (blockW2 V c t _).trans (congrArg _ ?_)) (fun k => (blockW'2 V c t _).trans (congrArg _ ?_))
    ((blockB2 V c t _).trans (congrArg _ ?_))
  · show ((((cfg2.win 5).blk t).view.emb (ix2 p j)) 0).val = t.val * 5000 + p.val; omega
  · show ((((cfg2.win 5).blk t).view.emb (ix2 p j)) 0).val = t.val * 5000 + p.val; omega
  · funext a; apply Fin.ext
    match a with
    | ⟨0, _⟩ => rfl
    | ⟨1, _⟩ => show j.val = ((((cfg2.win 5).blk t).view.emb (ix2 p j)) 1).val; omega
  · funext a; apply Fin.ext
    match a with
    | ⟨0, _⟩ => rfl
    | ⟨1, _⟩ => show j.val = ((((cfg2.win 5).blk t).view.emb (ix2 p j)) 1).val; omega
  · funext a; apply Fin.ext
    match a with
    | ⟨0, _⟩ => show j.val = ((((cfg2.win 5).blk t).view.emb (ix2 p j)) 1).val; omega

/-- An index of the result is in point t's block when each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v51).slice (win2_5.rect t)).set ↔ _
  rw [View.set_slice_whole, Rect.mem_set_unit]
  exact Iff.rfl

/-- Row r of the result lies in the block of point r / 5000: the twenty blocks fill the array. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  rw [mem_blk2]
  obtain ⟨-, -, -, -, -, -, -, -, -, e0, e1⟩ := idx_facts2 ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e1]; omega

/-! ## The two layers -/

/-- After the first layer region its result array is the specification's layer of the region's operand arrays, the
    weights read transposed. -/
theorem layer1_arr (V : VT) (c : Dev nD) :
    ((dat1 (F := Ideal) V c).arrAt 5 cfg1.N : S100000x128.Idx → EReal)
      = Cert.Spec.layer (V c main_v36 : S100000x128.Idx → EReal) (V c main_v11 : S100000x128.Idx → EReal)
          (Cert.Spec.transposed (V c main_v13 : S128x128.Idx → EReal)) (V c main_arg6 : S128.Idx → EReal)
          (Cert.Spec.transposed (V c main_v15 : S128x128.Idx → EReal)) :=
  (dat1 (F := Ideal) V c).arrAt_eq_of_cover 5 (layer1 V c) (fun t _ => flushed1_eq V c t) cover1

/-- After the second layer region its result array is the specification's layer of the region's operand arrays, the
    weights read transposed. -/
theorem layer2_arr (V : VT) (c : Dev nD) :
    ((dat2 (F := Ideal) V c).arrAt 5 cfg2.N : S100000x128.Idx → EReal)
      = Cert.Spec.layer (V c main_v50 : S100000x128.Idx → EReal) (V c main_v37 : S100000x128.Idx → EReal)
          (Cert.Spec.transposed (V c main_v17 : S128x128.Idx → EReal)) (V c main_arg9 : S128.Idx → EReal)
          (Cert.Spec.transposed (V c main_v19 : S128x128.Idx → EReal)) :=
  (dat2 (F := Ideal) V c).arrAt_eq_of_cover 5 (layer2 V c) (fun t _ => flushed2_eq V c t) cover2

end Cert.KernelIdeal.RegionLayer

end
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibRowSoftmax.lean ====
/-
  Softmax along the rows of a matrix and along the last axis of a rank-3 array, read at an index, on the
  extended reals: the low-rank companions of the rank-3 vector form and the rank-4 host form.

  * a vector program on [a, b]: the row maximum and the row sum are lane reductions to [a], each kept as a
    unit column [a, 1] and broadcast back along the rows (`vecSoftmax2`);
  * a host program on [a, b, c]: the maximum and the sum are reductions over axis 2 to [a, b], the maximum
    joined once more with minus infinity, each broadcast back through [a, b, 1] (`hostSoftmax3`).
  Read at an index both are `softmaxAt` of the row through that index. No law of arithmetic is used beyond
  max b (fold max b f) = fold max b f and 0 + s = s.
-/
import proofs.«146041_j27530740367556_1_alg».proof.Proof.LibLastAxisSoftmax
import proofs.«146041_j27530740367556_1_alg».proof.Proof.LibKeepdims

noncomputable section

open scoped BigOperators

namespace Idealize.ShloMosaic.LastAxisSoftmax

open Idealize.ShloMosaic Idealize.ShloMosaic.ValueIdx

/-! ## The vector program, rank 2 -/

section Vec2
variable {n0 n1 : Nat}

/-- The index of [a, b] over p of [a] with `k` on the reduced last axis is (p, k). -/
theorem lift2 (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

variable {F : FTy → Type} [FloatOps F]

/-- The vector program: subtract the row maximum, exponentiate, divide by the row sum. -/
def vecSoftmax2 (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩
      (multiReduction .maximumf [1] ⟨1, ![n0]⟩ X 0xFF800000#32 hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩
          (multiReduction .maximumf [1] ⟨1, ![n0]⟩ X 0xFF800000#32 hr hφ hmax) hc) hb)))
        0x00000000#32 hr hφ hadd) hc) hb)

end Vec2

/-- Read at (p, l), the vector program is the softmax of row p at `l`. -/
theorem vecSoftmax2_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2 (F := Ideal) X hr hc hb hφ hmax hadd (ix2 p l) = softmaxAt (fun k : Fin n1 => X (ix2 p k)) l := by
  -- the row maximum at p: the fold of `max` over the row
  have hM : multiReduction .maximumf [1] ⟨1, ![n0]⟩ X 0xFF800000#32 hr hφ hmax (ix1 p)
      = (Finset.univ : Finset (Fin n1)).fold max negInf (fun k : Fin n1 => X (ix2 p k)) := by
    rw [Ideal.multiReduction_maximumf_single]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩
        (multiReduction .maximumf [1] ⟨1, ![n0]⟩ X 0xFF800000#32 hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (multiReduction .maximumf [1] ⟨1, ![n0]⟩ X 0xFF800000#32 hr hφ hmax) hc) hb (ix2 p k)) = _
    rw [Cert.LibKeepdims.keepdims_apply, hM]
  unfold vecSoftmax2 softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.LibRowSoftmaxJoined.lean ====
/-
  Softmax along the rows of a matrix [a, b] as a vector program writes it when the row maximum is joined once
  more with minus infinity before it is subtracted, read at an index, on the extended reals.

  The row maximum is a lane reduction to [a] from the word of minus infinity; the program then takes the
  maximum of that vector with the splat of minus infinity (which changes nothing, the fold having started
  there), keeps it as a unit column [a, 1], broadcasts it back along the rows, subtracts, exponentiates, sums
  each row from zero, spreads the sum back the same way and divides (`vecSoftmax2Joined`). Read at (p, l)
  it is `softmaxAt` of row p at `l` (`vecSoftmax2Joined_apply`). The only laws used are
  max b (fold max b f) = fold max b f and 0 + s = s.
-/
import proofs.«146041_j27530740367556_1_alg».proof.Proof.LibRowSoftmax

noncomputable section

open scoped BigOperators

namespace Idealize.ShloMosaic.LastAxisSoftmax

open Idealize.ShloMosaic Idealize.ShloMosaic.ValueIdx

section Vec2Joined
variable {n0 n1 : Nat}
variable {F : FTy → Type} [FloatOps F]

/-- The row maximum joined with the splat of minus infinity. -/
def rowMaxJoined (X : FVec F ⟨2, ![n0, n1]⟩ .f32)
    (hr : (⟨2, ![n0, n1]⟩ : Shape).Reduces [1] ⟨1, ![n0]⟩)
    (hφ : FKind.Formats .f32) (hmax : (0xFF800000#32 : BitVec 32) = FKind.maximumf.neutral .f32 hφ) : FVec F ⟨1, ![n0]⟩ .f32 :=
  maximumf (broadcast ⟨1, ![n0]⟩ (Scalar.ofBits .f32 0xFF800000#32))
    (multiReduction .maximumf [1] ⟨1, ![n0]⟩ X 0xFF800000#32 hr hφ hmax)

/-- The vector program: subtract the joined row maximum, exponentiate, divide by the row sum. -/
def vecSoftmax2Joined (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩ (rowMaxJoined X hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩ (rowMaxJoined X hr hφ hmax) hc) hb)))
        0x00000000#32 hr hφ hadd) hc) hb)

end Vec2Joined

/-- Read at (p, l), the vector program is the softmax of row p at `l`. -/
theorem vecSoftmax2Joined_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2Joined (F := Ideal) X hr hc hb hφ hmax hadd (ix2 p l) = softmaxAt (fun k : Fin n1 => X (ix2 p k)) l := by
  -- the joined row maximum at p: joining the fold from minus infinity with minus infinity changes nothing
  have hM : rowMaxJoined (F := Ideal) X hr hφ hmax (ix1 p)
      = (Finset.univ : Finset (Fin n1)).fold max negInf (fun k : Fin n1 => X (ix2 p k)) := by
    show max negInf (multiReduction .maximumf [1] ⟨1, ![n0]⟩ X 0xFF800000#32 hr hφ hmax (ix1 p)) = _
    rw [Ideal.multiReduction_maximumf_single]
    show max negInf (Finset.univ.fold max negInf (X ∘ hr.lift (ix1 p))) = _
    rw [max_eq_right ((Finset.le_fold_max _).2 (Or.inl le_rfl))]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩ (rowMaxJoined (F := Ideal) X hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (rowMaxJoined (F := Ideal) X hr hφ hmax) hc) hb (ix2 p k)) = _
    rw [Cert.LibKeepdims.keepdims_apply, hM]
  unfold vecSoftmax2Joined softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.RegionClassify.lean ====
/-
  The classifier, as the fourth kernel region computes it, is the specification's classifier.

  The region has a single grid point and every window is its whole array, so the region's one write-back is the
  body's result on the arrays themselves. The body divides each graph's feature sums by max(count, 1) (the count
  column spread along the row), sends the means through a matrix product into zero plus a bias row, rectified, then
  through a second matrix product into zero plus a bias row, and normalises each row of two logits by the softmax
  whose row maximum is folded from minus infinity and joined with minus infinity once more. Narrowing a value to
  the shorter float format changes nothing on the extended reals. The weights arrive already transposed, [in, out],
  so entry (k, j) of a weight window is entry (j, k) of the specification's [out, in] matrix.
-/
import proofs.«146041_j27530740367556_1_alg».proof.Proof.Spec
import proofs.«146041_j27530740367556_1_alg».proof.Proof.Gen.KernelIdeal.Frame
import proofs.«146041_j27530740367556_1_alg».proof.Proof.LibRowSoftmaxJoined
import proofs.«146041_j27530740367556_1_alg».proof.Proof.LibPlainDot
import Idealize.ShloMosaic.Lib.Pipeline.Value

set_option maxRecDepth 16384
noncomputable section
open Idealize.ShloMosaic Idealize.ShloMosaic.TcCoe Idealize.SL.Sem
open scoped BigOperators

namespace Cert.KernelIdeal.RegionClassify
open Cert.KernelIdeal Cert.KernelIdeal.Gen
open Idealize.ShloMosaic.ValueIdx
open Idealize.ShloMosaic.Pipeline (Dat)

abbrev VT := (c : Dev nD) → (b : Ref sig .tc) → Buf (Elt Ideal) ((c : Thread nD τ).loc b)

/-! ## The two matrix products are rows times columns -/

/-- The 256 × 128 by 128 × 64 product contracts the left operand's columns against the right operand's rows. -/
theorem plain_hidden : Cert.LibHostRead.PlainDot dot_S256x128_S128x64_S256x64_1_0_0_1_n_n where
  hr := rfl
  hs := rfl
  hl0 := fun _ _ => rfl
  hl1 := fun _ _ => rfl
  hr0 := fun _ _ => rfl
  hr1 := fun _ _ => rfl

/-- The 256 × 64 by 64 × 2 product likewise. -/
theorem plain_logit : Cert.LibHostRead.PlainDot dot_S256x64_S64x2_S256x2_1_0_0_1_n_n where
  hr := rfl
  hs := rfl
  hl0 := fun _ _ => rfl
  hl1 := fun _ _ => rfl
  hr0 := fun _ _ => rfl
  hr1 := fun _ _ => rfl

/-! ## The body's stages, over variables -/

section Stages
variable (v0 : Vec Ideal S256x128 .f32) (v2 : Vec Ideal S256x1 .f32) (v9 : Vec Ideal S128x64 .bf16)
  (v11 : Vec Ideal S64 .f32) (v19 : Vec Ideal S64x2 .bf16) (v21 : Vec Ideal S2 .f32)

/-- The mean features: the sums over max(count, 1), the count column spread along each row. -/
def pooledV : FVec Ideal S256x128 .f32 :=
  divf (shapeCast S256x128 v0 shapeCasts_S256x128_S256x128)
    (broadcastTo S256x128
      (maximumf (shapeCast S256x1 v2 shapeCasts_S256x1_S256x1) (broadcast S256x1 (Scalar.ofBits .f32 0x3F800000#32)))
      broadcasts_S256x1_S256x128)

/-- The hidden units: the means times the first weights, plus the bias row, rectified. -/
def hiddenV : FVec Ideal S256x64 .f32 :=
  maximumf
    (addf
      (matmul dot_S256x128_S128x64_S256x64_1_0_0_1_n_n none (truncf .bf16 (pooledV v0 v2) bitsLt_bf16_f32)
        (shapeCast S128x64 v9 shapeCasts_S128x64_S128x64 : FVec Ideal S128x64 .bf16) (constant S256x64 .f32 0x00000000#32))
      (broadcastTo S256x64 (shapeCast S1x64 v11 shapeCasts_S64_S1x64) broadcasts_S1x64_S256x64))
    (broadcast S256x64 (Scalar.ofBits .f32 0x00000000#32))

/-- The logits: the hidden units times the second weights, plus the bias row. -/
def logitsV : FVec Ideal S256x2 .f32 :=
  addf
    (matmul dot_S256x64_S64x2_S256x2_1_0_0_1_n_n none (truncf .bf16 (hiddenV v0 v2 v9 v11) bitsLt_bf16_f32)
      (shapeCast S64x2 v19 shapeCasts_S64x2_S64x2 : FVec Ideal S64x2 .bf16) (constant S256x2 .f32 0x00000000#32))
    (broadcastTo S256x2 (shapeCast S1x2 v21 shapeCasts_S2_S1x2) broadcasts_S1x2_S256x2)

/-- The body's result is the row softmax of the logits. -/
theorem pay_eq : k3_pay1 (F := Ideal) v0 v2 v9 v11 v19 v21
    = LastAxisSoftmax.vecSoftmax2Joined (logitsV v0 v2 v9 v11 v19 v21) reduces_S256x2_S256 shapeCasts_S256_S256x1
        broadcasts_S256x1_S256x2 (.inl rfl) rfl rfl := by
  unfold k3_pay1 logitsV hiddenV pooledV LastAxisSoftmax.vecSoftmax2Joined LastAxisSoftmax.rowMaxJoined
  rfl

/-- A mean feature at (p, k): the sum over max(count of graph p, 1). -/
theorem pooledV_apply (p : Fin 256) (k : Fin 128) :
    pooledV v0 v2 (ix2 p k) = Cert.Spec.pooledAt (v0 (ix2 p k)) (v2 (ix2 p (0 : Fin 1))) := by
  unfold pooledV
  rw [divf_apply, shapeCast_self, Cert.LibKeepdims.broadcastTo_a1_ab_apply, maximumf_apply, shapeCast_self, broadcast_apply]
  rfl

/-- A hidden unit at (p, j). -/
theorem hiddenV_apply (p : Fin 256) (j : Fin 64) :
    hiddenV v0 v2 v9 v11 (ix2 p j)
      = Cert.Spec.hiddenAt v0 (Cert.Spec.colOf v2) (Cert.Spec.transposed v9) v11 p j := by
  unfold hiddenV
  rw [maximumf_apply, addf_apply, broadcast_apply, Cert.LibPlainDot.rowBias_apply,
    Cert.LibPlainDot.vmatmul_apply _ plain_hidden]
  simp only [truncf_apply, shapeCast_self, pooledV_apply]
  rfl

/-- A logit at (p, l). -/
theorem logitsV_apply (p : Fin 256) (l : Fin 2) :
    logitsV v0 v2 v9 v11 v19 v21 (ix2 p l)
      = Cert.Spec.logitAt v0 (Cert.Spec.colOf v2) (Cert.Spec.transposed v9) v11 (Cert.Spec.transposed v19) v21 p l := by
  unfold logitsV
  rw [addf_apply, Cert.LibPlainDot.rowBias_apply, Cert.LibPlainDot.vmatmul_apply _ plain_logit]
  simp only [truncf_apply, shapeCast_self, hiddenV_apply]
  rfl

/-- Joining a fold of maxima that started from minus infinity with minus infinity once more changes nothing. -/
theorem rowMax_eq {n : Nat} (z : Fin n → EReal) :
    Cert.Spec.rowMax z = (Finset.univ : Finset (Fin n)).fold max Cert.Spec.negInf z :=
  max_eq_right ((Finset.le_fold_max _).2 (Or.inl le_rfl))

/-- The body's result at (p, l) is the specification's classifier there. -/
theorem pay_apply (p : Fin 256) (l : Fin 2) :
    k3_pay1 (F := Ideal) v0 v2 v9 v11 v19 v21 (ix2 p l)
      = Cert.Spec.classify v0 (Cert.Spec.colOf v2) (Cert.Spec.transposed v9) v11 (Cert.Spec.transposed v19) v21 (ix2 p l) := by
  rw [pay_eq]
  refine (LastAxisSoftmax.vecSoftmax2Joined_apply (logitsV v0 v2 v9 v11 v19 v21) reduces_S256x2_S256
    shapeCasts_S256_S256x1 broadcasts_S256x1_S256x2 (.inl rfl) rfl rfl p l).trans ?_
  unfold LastAxisSoftmax.softmaxAt Cert.Spec.classify Cert.Spec.softmaxAt
  simp only [logitsV_apply, rowMax_eq]

end Stages

/-! ## From the one block to the array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The body loads each input buffer whole and stores its result once over the whole output buffer: what it leaves
    there is its result on the input buffers. -/
theorem out_eq (x0 : Vec Ideal S256x128 .f32) (x1 : Vec Ideal S256x1 .f32) (x2 : Vec Ideal S128x64 .bf16)
    (x3 : Vec Ideal S64 .f32) (x4 : Vec Ideal S64x2 .bf16) (x5 : Vec Ideal S2 .f32) :
    out3_6 (F := Ideal) x0 x1 x2 x3 x4 x5 = k3_pay1 (F := Ideal) x0 x1 x2 x3 x4 x5 := by
  unfold out3_6
  rw [View.canon_unit_zero zero_offsets2]
  simp only [View.ld_unit_zero (S := S256x128) zero_offsets2, View.ld_unit_zero (S := S256x1) zero_offsets2,
    View.ld_unit_zero (S := S128x64) zero_offsets2, View.ld_unit_zero (S := S64) zero_offsets1,
    View.ld_unit_zero (S := S64x2) zero_offsets2, View.ld_unit_zero (S := S2) zero_offsets1]

/-- Every window's block index is zero on every axis, at every grid point (there is one). -/
theorem idx_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0 :=
  (by decide +kernel : ∀ t : Fin grid3.N, _)

section Blocks
variable (V : VT) (c : Dev nD) (t : Fin cfg3.N)

/-- The feature sums' block is the whole array. -/
theorem blk_sums : (iblk3 (F := Ideal) V c 0 t : S256x128.Idx → EReal) = (V c main_v54 : S256x128.Idx → EReal) := by
  obtain ⟨e0, e1, -⟩ := idx_zero t
  funext y
  show (V c main_v54 : S256x128.Idx → EReal) (((cfg3.win 0).blk t).view.emb y) = V c main_v54 y
  refine congrArg _ (funext fun a => Fin.ext ?_)
  match a with
  | ⟨0, _⟩ => show win3_0.index t (0 : Fin 2) * 256 + 1 * (y 0).val = (y 0).val; omega
  | ⟨1, _⟩ => show win3_0.index t (1 : Fin 2) * 128 + 1 * (y 1).val = (y 1).val; omega

/-- The count column's block is the whole array. -/
theorem blk_counts : (iblk3 (F := Ideal) V c 1 t : S256x1.Idx → EReal) = (V c main_v59 : S256x1.Idx → EReal) := by
  obtain ⟨-, -, e0, e1, -⟩ := idx_zero t
  funext y
  show (V c main_v59 : S256x1.Idx → EReal) (((cfg3.win 1).blk t).view.emb y) = V c main_v59 y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 1 + 1 * (y 1).val = (y 1).val; omega

/-- The first weights' block is the whole array. -/
theorem blk_w1 : (iblk3 (F := Ideal) V c 2 t : S128x64.Idx → EReal) = (V c main_v21 : S128x64.Idx → EReal) := by
  obtain ⟨-, -, -, -, e0, e1, -⟩ := idx_zero t
  funext y
  show (V c main_v21 : S128x64.Idx → EReal) (((cfg3.win 2).blk t).view.emb y) = V c main_v21 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 64 + 1 * (y 1).val = (y 1).val; omega

/-- The first bias's block is the whole array. -/
theorem blk_b1 : (iblk3 (F := Ideal) V c 3 t : S64.Idx → EReal) = (V c main_arg12 : S64.Idx → EReal) := by
  obtain ⟨-, -, -, -, -, -, e0, -⟩ := idx_zero t
  funext y
  show (V c main_arg12 : S64.Idx → EReal) (((cfg3.win 3).blk t).view.emb y) = V c main_arg12 y
  refine congrArg _ (funext fun a => Fin.ext ?_)
  match a with
  | ⟨0, _⟩ => show win3_3.index t (0 : Fin 1) * 64 + 1 * (y 0).val = (y 0).val; omega

/-- The second weights' block is the whole array. -/
theorem blk_w2 : (iblk3 (F := Ideal) V c 4 t : S64x2.Idx → EReal) = (V c main_v23 : S64x2.Idx → EReal) := by
  obtain ⟨-, -, -, -, -, -, -, e0, e1, -⟩ := idx_zero t
  funext y
  show (V c main_v23 : S64x2.Idx → EReal) (((cfg3.win 4).blk t).view.emb y) = V c main_v23 y
  refine congrArg _ (funext fun a => Fin.ext ?_)
  match a with
  | ⟨0, _⟩ => show win3_4.index t (0 : Fin 2) * 64 + 1 * (y 0).val = (y 0).val; omega
  | ⟨1, _⟩ => show win3_4.index t (1 : Fin 2) * 2 + 1 * (y 1).val = (y 1).val; omega

/-- The second bias's block is the whole array. -/
theorem blk_b2 : (iblk3 (F := Ideal) V c 5 t : S2.Idx → EReal) = (V c main_arg14 : S2.Idx → EReal) := by
  obtain ⟨-, -, -, -, -, -, -, -, -, e0, -⟩ := idx_zero t
  funext y
  show (V c main_arg14 : S2.Idx → EReal) (((cfg3.win 5).blk t).view.emb y) = V c main_arg14 y
  refine congrArg _ (funext fun a => Fin.ext ?_)
  match a with
  | ⟨0, _⟩ => show win3_5.index t (0 : Fin 1) * 2 + 1 * (y 0).val = (y 0).val; omega

/-- An index inside the output's block is the same index of the array. -/
theorem emb_out (y : S256x2.Idx) : ((cfg3.win 6).blk t).view.emb y = y := by
  obtain ⟨-, -, -, -, -, -, -, -, -, -, e0, e1⟩ := idx_zero t
  refine funext fun a => Fin.ext ?_
  match a with
  | ⟨0, _⟩ => show win3_6.index t (0 : Fin 2) * 256 + 1 * (y 0).val = (y 0).val; omega
  | ⟨1, _⟩ => show win3_6.index t (1 : Fin 2) * 2 + 1 * (y 1).val = (y 1).val; omega

/-- The specification's classifier of the six arrays the region reads, as the region finds them. -/
abbrev classified : S256x2.Idx → EReal :=
  Cert.Spec.classify (V c main_v54 : S256x128.Idx → EReal) (Cert.Spec.colOf (V c main_v59 : S256x1.Idx → EReal))
    (Cert.Spec.transposed (V c main_v21 : S128x64.Idx → EReal)) (V c main_arg12 : S64.Idx → EReal)
    (Cert.Spec.transposed (V c main_v23 : S64x2.Idx → EReal)) (V c main_arg14 : S2.Idx → EReal)

/-- What the grid point writes back is the classifier's block. -/
theorem written_eq :
    (dat3 (F := Ideal) V c).flushed 6 t = ((cfg3.win 6).blk t).view.read (Elt Ideal) (classified V c) := by
  show (cfg3.win 6).cut (grid3.coords t) ((dat3 (F := Ideal) V c).after 6 t) = _
  rw [after3_6, out_eq]
  funext y
  show k3_pay1 (F := Ideal) (iblk3 V c 0 t) (iblk3 V c 1 t) (iblk3 V c 2 t) (iblk3 V c 3 t) (iblk3 V c 4 t) (iblk3 V c 5 t) y
    = classified V c (((cfg3.win 6).blk t).view.emb y)
  rw [emb_out t y, blk_sums, blk_counts, blk_w1, blk_b1, blk_w2, blk_b2]
  obtain ⟨p, l, rfl⟩ : ∃ (p : Fin 256) (l : Fin 2), y = ix2 p l := ⟨y 0, y 1, eq_ix2 y⟩
  exact pay_apply _ _ _ _ _ _ p l

/-- Every index of the output array is in the grid point's block. -/
theorem mem_out (i : S256x2.Idx) : i ∈ ((cfg3.win 6).blk t).view.set := by
  obtain ⟨-, -, -, -, -, -, -, -, -, -, e0, e1⟩ := idx_zero t
  show i ∈ ((View.whole main_v60).slice (win3_6.rect t)).set
  rw [View.set_slice_whole, Rect.mem_set_unit]
  intro a
  have h0 : (i 0).val < 256 := (i 0).isLt
  have h1 : (i 1).val < 2 := (i 1).isLt
  match a with
  | ⟨0, _⟩ =>
    show win3_6.index t (0 : Fin 2) * 256 ≤ (i 0).val ∧ (i 0).val < win3_6.index t (0 : Fin 2) * 256 + 256
    omega
  | ⟨1, _⟩ =>
    show win3_6.index t (1 : Fin 2) * 2 ≤ (i 1).val ∧ (i 1).val < win3_6.index t (1 : Fin 2) * 2 + 2
    omega

end Blocks

/-- THE ARRAY the region leaves: the specification's classifier of the arrays it read. -/
theorem classify_arr (V : VT) (c : Dev nD) :
    ((dat3 (F := Ideal) V c).arrAt 6 cfg3.N : S256x2.Idx → EReal)
      = Cert.Spec.classify (V c main_v54 : S256x128.Idx → EReal) (Cert.Spec.colOf (V c main_v59 : S256x1.Idx → EReal))
          (Cert.Spec.transposed (V c main_v21 : S128x64.Idx → EReal)) (V c main_arg12 : S64.Idx → EReal)
          (Cert.Spec.transposed (V c main_v23 : S64x2.Idx → EReal)) (V c main_arg14 : S2.Idx → EReal) :=
  (dat3 (F := Ideal) V c).arrAt_eq_of_cover 6 (classified V c) (fun t _ => written_eq V c t)
    (fun i => ⟨t3_0, flush3_6 t3_0, mem_out t3_0 i⟩)

end Cert.KernelIdeal.RegionClassify

end
-- ==== Proof.RefNorm.lean ====
/-
  The reference's rescaling of the embedding rows, read entry by entry.

  The reference squares every entry of the gathered embedding array, sums each row of 128 squares
  starting from the float zero, takes the square root, adds the small constant, inverts, caps the
  factor at one and multiplies it back into every entry of the row.  Read at row p and feature q this is
  entry (p, q) times min(1, 1 / (sqrt(sum_k entry(p, k)^2) + eps)), which is the specification's
  rescaled row.  The only law used is 0 + s = s for the sum's starting value.
-/
import proofs.«146041_j27530740367556_1_alg».proof.Proof.Gen.ReferenceIdeal.Read
import proofs.«146041_j27530740367556_1_alg».proof.Proof.Spec
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefNorm

open Cert.ReferenceIdeal Cert.ReferenceIdeal.Read

variable (x0 : S100000.Idx → BitVec 32) (x4 : S10000x128.Idx → EReal)

/-- The row sum behind entry (p, q) runs over the entries (p, k) of the same row: the composed index
    maps of the two broadcasts and of the reduction send (p, q), k to (p, k). -/
theorem row_index (p : Fin 100000) (q k : Fin 128) :
    idx_main_call0_v1 (idx_main_call0_v2 (idx_main_v18 (ix2 p q))) k = ix2 p k :=
  funext fun a => Fin.ext (by match a with | ⟨0, _⟩ => rfl | ⟨1, _⟩ => rfl)

/-- The reference's rescaled array is the specification's, entry by entry. -/
theorem norm_ref : val_main_v19 (F := Ideal) x0 x4 = Cert.Spec.normalize (val_main_v10 (F := Ideal) x0 x4) := by
  funext i
  obtain ⟨p, q, rfl⟩ : ∃ (p : Fin 100000) (q : Fin 128), i = ix2 p q := ⟨i 0, i 1, eq_ix2 i⟩
  rw [val_main_v19_apply, val_main_v18_apply, val_main_v17_apply, val_main_v16_apply, val_main_cst_2_apply,
    val_main_v15_apply, val_main_v14_apply, val_main_cst_1_apply, val_main_v13_apply, val_main_v12_apply,
    val_main_cst_apply, val_main_v11_apply, val_main_call0_v2_apply, val_main_call0_v1_apply,
    val_main_call0_cst_apply]
  simp only [val_main_call0_v0_apply, row_index]
  unfold Cert.Spec.normalize Cert.Spec.normAt
  simp only [Ideal.mulf_def, Ideal.minimumf_def, Ideal.hostDivf_def, Ideal.addf_def, Ideal.hostUnary_sqrt_def,
    Ideal.ofBits_def, Ideal.ofBits_zero_f32, zero_add]

end Cert.ReferenceIdeal.RefNorm

end
-- ==== Proof.RefLayer.lean ====
/-
  The reference's two graph-convolution layers, read entry by entry.

  Each layer forms, from an aggregated neighbourhood array A and the node features H (both 100000 x 128) and
  [out, in] weight matrices Wl, Wr with a bias b, the array whose entry (p, j) is
  max((sum_k A(p,k) * Wl(j,k) + b(j)) + sum_k H(p,k) * Wr(j,k), 0).
  The program reaches it by exchanging the two coordinates of each weight matrix, contracting the second coordinate
  of A (resp. H) against the first coordinate of the exchanged matrix, spreading b along the rows, adding, and
  joining with the zero array by max.  A and H stay as the values the earlier operations produce; nothing here
  looks inside them.
-/
import proofs.«146041_j27530740367556_1_alg».proof.Proof.Gen.ReferenceIdeal.Read
import proofs.«146041_j27530740367556_1_alg».proof.Proof.Spec
import Idealize.ShloMosaic.Lib.ValueIdx
import Idealize.ShloMosaic.Lib.Pipeline.Value
import Idealize.ShloMosaic.PureOps.Ideal.Laws

set_option maxRecDepth 16384
noncomputable section
open Idealize.ShloMosaic Idealize.ShloMosaic.TcCoe Idealize.SL.Sem
open scoped BigOperators

namespace Cert.ReferenceIdeal.RefLayer
open Cert.ReferenceIdeal Cert.ReferenceIdeal.Read Idealize.ShloMosaic.ValueIdx

variable (x0 : S100000.Idx → BitVec 32) (x1 : S2x1600000.Idx → BitVec 32) (x2 : S1600000.Idx → EReal) (x3 : S100000.Idx → BitVec 32)
  (x4 : S10000x128.Idx → EReal) (x5 : S128x128.Idx → EReal) (x6 : S128.Idx → EReal) (x7 x8 : S128x128.Idx → EReal)
  (x9 : S128.Idx → EReal) (x10 : S128x128.Idx → EReal) (x11 : S64x128.Idx → EReal) (x12 : S64.Idx → EReal)
  (x13 : S2x64.Idx → EReal) (x14 : S2.Idx → EReal)

/-- The first layer.  At entry (p, j): the contraction of A against the exchanged Wl reads A at (p, k) and the
    exchanged matrix at (k, j), that is Wl at (j, k); the bias spread along the rows reads b at j; the same for H
    and Wr; the two sums and the bias are added in the order (sum + bias) + sum, and the result is joined with the
    float zero by max. -/
theorem layer1_ref : val_main_v41 (F := Ideal) x0 x1 x2 x4 x5 x6 x7
    = Cert.Spec.layer (val_main_v32 (F := Ideal) x0 x1 x2 x4) (val_main_v19 (F := Ideal) x0 x4) x5 x6 x7 := by
  funext i
  obtain ⟨p, j, rfl⟩ : ∃ (p : Fin 100000) (j : Fin 128), i = ix2 p j := ⟨i 0, i 1, eq_ix2 i⟩
  -- the left factor of the first contraction is read at (p, k)
  have eA : ∀ k : Fin 128, lidx_main_v34 (ix2 p j) k = ix2 p k := fun k =>
    funext fun a => Fin.ext (by match a with | ⟨0, _⟩ => rfl | ⟨1, _⟩ => rfl)
  -- its right factor, the exchanged Wl at (k, j), is Wl at (j, k)
  have eWl : ∀ k : Fin 128, idx_main_v33 (ridx_main_v34 (ix2 p j) k) = ix2 j k := fun k =>
    funext fun a => Fin.ext (by match a with | ⟨0, _⟩ => rfl | ⟨1, _⟩ => rfl)
  -- the left factor of the second contraction is read at (p, k)
  have eH : ∀ k : Fin 128, lidx_main_v39 (ix2 p j) k = ix2 p k := fun k =>
    funext fun a => Fin.ext (by match a with | ⟨0, _⟩ => rfl | ⟨1, _⟩ => rfl)
  -- its right factor, the exchanged Wr at (k, j), is Wr at (j, k)
  have eWr : ∀ k : Fin 128, idx_main_v38 (ridx_main_v39 (ix2 p j) k) = ix2 j k := fun k =>
    funext fun a => Fin.ext (by match a with | ⟨0, _⟩ => rfl | ⟨1, _⟩ => rfl)
  -- the bias, made a single row and then repeated along the rows, is read at j
  have eb : idx_main_v35 (idx_main_v36 (ix2 p j)) = ix1 j :=
    funext fun a => Fin.ext (by match a with | ⟨0, _⟩ => rfl)
  rw [val_main_v41_apply, val_main_v40_apply, val_main_v37_apply, val_main_v34_apply, val_main_v39_apply,
    val_main_v36_apply, val_main_v35_apply, val_main_call1_v0_apply, val_main_call1_cst_apply]
  simp only [val_main_v33_apply, val_main_v38_apply, eA, eWl, eH, eWr, eb]
  -- on the extended reals the float sum is +, the float maximum is max, and the zero word is the same on both sides
  simp only [Cert.Spec.layer, Cert.Spec.layerAt, Ideal.maximumf_def, Ideal.addf_def, Ideal.ofBits_def]

/-- The second layer: the same entry-by-entry reading, with the second layer's aggregated array, the first layer's
    output as node features, and the second pair of weight matrices and bias. -/
theorem layer2_ref : val_main_v63 (F := Ideal) x0 x1 x2 x4 x5 x6 x7 x8 x9 x10
    = Cert.Spec.layer (val_main_v54 (F := Ideal) x0 x1 x2 x4 x5 x6 x7) (val_main_v41 (F := Ideal) x0 x1 x2 x4 x5 x6 x7) x8 x9 x10 := by
  funext i
  obtain ⟨p, j, rfl⟩ : ∃ (p : Fin 100000) (j : Fin 128), i = ix2 p j := ⟨i 0, i 1, eq_ix2 i⟩
  -- the left factor of the first contraction is read at (p, k)
  have eA : ∀ k : Fin 128, lidx_main_v56 (ix2 p j) k = ix2 p k := fun k =>
    funext fun a => Fin.ext (by match a with | ⟨0, _⟩ => rfl | ⟨1, _⟩ => rfl)
  -- its right factor, the exchanged Wl at (k, j), is Wl at (j, k)
  have eWl : ∀ k : Fin 128, idx_main_v55 (ridx_main_v56 (ix2 p j) k) = ix2 j k := fun k =>
    funext fun a => Fin.ext (by match a with | ⟨0, _⟩ => rfl | ⟨1, _⟩ => rfl)
  -- the left factor of the second contraction is read at (p, k)
  have eH : ∀ k : Fin 128, lidx_main_v61 (ix2 p j) k = ix2 p k := fun k =>
    funext fun a => Fin.ext (by match a with | ⟨0, _⟩ => rfl | ⟨1, _⟩ => rfl)
  -- its right factor, the exchanged Wr at (k, j), is Wr at (j, k)
  have eWr : ∀ k : Fin 128, idx_main_v60 (ridx_main_v61 (ix2 p j) k) = ix2 j k := fun k =>
    funext fun a => Fin.ext (by match a with | ⟨0, _⟩ => rfl | ⟨1, _⟩ => rfl)
  -- the bias, made a single row and then repeated along the rows, is read at j
  have eb : idx_main_v57 (idx_main_v58 (ix2 p j)) = ix1 j :=
    funext fun a => Fin.ext (by match a with | ⟨0, _⟩ => rfl)
  rw [val_main_v63_apply, val_main_v62_apply, val_main_v59_apply, val_main_v56_apply, val_main_v61_apply,
    val_main_v58_apply, val_main_v57_apply, val_main_call2_v0_apply, val_main_call2_cst_apply]
  simp only [val_main_v55_apply, val_main_v60_apply, eA, eWl, eH, eWr, eb]
  -- on the extended reals the float sum is +, the float maximum is max, and the zero word is the same on both sides
  simp only [Cert.Spec.layer, Cert.Spec.layerAt, Ideal.maximumf_def, Ideal.addf_def, Ideal.ofBits_def]

end Cert.ReferenceIdeal.RefLayer
end
-- ==== Proof.RefClassify.lean ====
/-
  The reference's classifier, entry by entry.

  Each graph p has a feature sum S(p, ·) and a node count cnt(p).  The mean feature is S(p, k) / max(cnt(p), 1); hidden
  unit j is max(∑_k mean(p, k) * W1(j, k) + b1(j), 0); logit l is ∑_j hidden(p, j) * W2(l, j) + b2(l).  The output at
  (p, l) is exp(z_l - m) / ∑_j exp(z_j - m), where z is the row of two logits and m is their maximum taken from -inf and
  joined with -inf once more.  A broadcast reads its operand at the surviving coordinates, a transposed matrix at the
  exchanged ones, a contraction is the finite sum over the contracted coordinate, and a sum started from the zero word
  is the sum itself.
-/
import proofs.«146041_j27530740367556_1_alg».proof.Proof.Gen.ReferenceIdeal.Read
import proofs.«146041_j27530740367556_1_alg».proof.Proof.Spec
import Idealize.ShloMosaic.Lib.ValueIdx
import Idealize.ShloMosaic.Lib.Pipeline.Value
import Idealize.ShloMosaic.PureOps.Ideal.Laws
import Idealize.ShloMosaic.PureOps.Reduce

set_option maxRecDepth 16384
noncomputable section
open scoped BigOperators
open Idealize.ShloMosaic Idealize.ShloMosaic.TcCoe Idealize.SL.Sem

namespace Cert.ReferenceIdeal.RefClassify
open Cert.ReferenceIdeal Cert.ReferenceIdeal.Gen Cert.ReferenceIdeal.Read Idealize.ShloMosaic.ValueIdx

variable (x0 : S100000.Idx → BitVec 32) (x1 : S2x1600000.Idx → BitVec 32) (x2 : S1600000.Idx → EReal) (x3 : S100000.Idx → BitVec 32)
  (x4 : S10000x128.Idx → EReal) (x5 : S128x128.Idx → EReal) (x6 : S128.Idx → EReal) (x7 x8 : S128x128.Idx → EReal)
  (x9 : S128.Idx → EReal) (x10 : S128x128.Idx → EReal) (x11 : S64x128.Idx → EReal) (x12 : S64.Idx → EReal)
  (x13 : S2x64.Idx → EReal) (x14 : S2.Idx → EReal)

/-- The pooled mean at (p, k): the graph's feature sum over its node count joined with one. -/
theorem pooled_at (p : Fin 256) (k : Fin 128) :
    val_main_v75 (F := Ideal) x0 x1 x2 x3 x4 x5 x6 x7 x8 x9 x10 (ix2 p k)
      = Cert.Spec.pooledAt (val_main_v66 (F := Ideal) x0 x1 x2 x3 x4 x5 x6 x7 x8 x9 x10 (ix2 p k)) (val_main_v70 (F := Ideal) x3 (ix1 p)) := by
  rw [val_main_v75_apply, val_main_v74_apply, val_main_v73_apply, val_main_v72_apply, val_main_v71_apply,
    val_main_cst_12_apply]
  have e : idx_main_v73 (idx_main_v74 (ix2 p k)) = ix1 p :=
    funext fun a => Fin.ext (by match a with | ⟨0, _⟩ => rfl)
  rw [e]
  unfold Cert.Spec.pooledAt
  simp only [Ideal.hostDivf_def, Ideal.maximumf_def, Ideal.ofBits_def]

/-- Hidden unit j of graph p. -/
theorem hidden_at (p : Fin 256) (j : Fin 64) :
    val_main_v81 (F := Ideal) x0 x1 x2 x3 x4 x5 x6 x7 x8 x9 x10 x11 x12 (ix2 p j)
      = Cert.Spec.hiddenAt (val_main_v66 (F := Ideal) x0 x1 x2 x3 x4 x5 x6 x7 x8 x9 x10) (val_main_v70 (F := Ideal) x3) x11 x12 p j := by
  rw [val_main_v81_apply, val_main_v80_apply, val_main_v77_apply, val_main_v79_apply, val_main_v78_apply,
    val_main_call3_v0_apply, val_main_call3_cst_apply]
  have el : ∀ k : Fin 128, lidx_main_v77 (ix2 p j) k = ix2 p k := fun k =>
    funext fun a => Fin.ext (by match a with | ⟨0, _⟩ => rfl | ⟨1, _⟩ => rfl)
  have er : ∀ k : Fin 128, idx_main_v76 (ridx_main_v77 (ix2 p j) k) = ix2 j k := fun k =>
    funext fun a => Fin.ext (by match a with | ⟨0, _⟩ => rfl | ⟨1, _⟩ => rfl)
  have eb : idx_main_v78 (idx_main_v79 (ix2 p j)) = ix1 j :=
    funext fun a => Fin.ext (by match a with | ⟨0, _⟩ => rfl)
  simp only [val_main_v76_apply, el, er, eb, pooled_at]
  unfold Cert.Spec.hiddenAt
  simp only [Ideal.addf_def, Ideal.maximumf_def, Ideal.ofBits_def]

/-- Logit l of graph p. -/
theorem logit_at (p : Fin 256) (l : Fin 2) :
    val_main_v86 (F := Ideal) x0 x1 x2 x3 x4 x5 x6 x7 x8 x9 x10 x11 x12 x13 x14 (ix2 p l)
      = Cert.Spec.logitAt (val_main_v66 (F := Ideal) x0 x1 x2 x3 x4 x5 x6 x7 x8 x9 x10) (val_main_v70 (F := Ideal) x3) x11 x12 x13 x14 p l := by
  rw [val_main_v86_apply, val_main_v83_apply, val_main_v85_apply, val_main_v84_apply]
  have el : ∀ k : Fin 64, lidx_main_v83 (ix2 p l) k = ix2 p k := fun k =>
    funext fun a => Fin.ext (by match a with | ⟨0, _⟩ => rfl | ⟨1, _⟩ => rfl)
  have er : ∀ k : Fin 64, idx_main_v82 (ridx_main_v83 (ix2 p l) k) = ix2 l k := fun k =>
    funext fun a => Fin.ext (by match a with | ⟨0, _⟩ => rfl | ⟨1, _⟩ => rfl)
  have eb : idx_main_v84 (idx_main_v85 (ix2 p l)) = ix1 l :=
    funext fun a => Fin.ext (by match a with | ⟨0, _⟩ => rfl)
  simp only [val_main_v82_apply, el, er, eb, hidden_at]
  unfold Cert.Spec.logitAt
  simp only [Ideal.addf_def]

/-- The row index p with the class coordinate l put back on the reduced axis is (p, l). -/
theorem lift_at (h : S256x2.Reduces [1] S256) (p : Fin 256) (l : Fin (S256x2.size 1)) :
    h.lift (ix1 p) l = ix2 p (⟨l.val, l.isLt⟩ : Fin 2) := by
  funext c; apply Fin.ext
  match c with
  | ⟨0, _⟩ => rfl
  | ⟨1, _⟩ => rfl

/-- The maximum of graph p's two logits, started from -inf and joined with -inf once more. -/
theorem rowmax_at (p : Fin 256) :
    val_main_v89 (F := Ideal) x0 x1 x2 x3 x4 x5 x6 x7 x8 x9 x10 x11 x12 x13 x14 (ix1 p)
      = Cert.Spec.rowMax (fun l : Fin 2 => Cert.Spec.logitAt (val_main_v66 (F := Ideal) x0 x1 x2 x3 x4 x5 x6 x7 x8 x9 x10) (val_main_v70 (F := Ideal) x3) x11 x12 x13 x14 p l) := by
  rw [val_main_v89_apply, val_main_v88_apply, val_main_cst_14_apply]
  unfold val_main_v87
  rw [Host.reduce_eq_fold_single FloatOps.maximumf _ _ reducesTo_S256x2_S256_d1 (by decide) h_S_, val_main_cst_13_apply]
  have hf : (val_main_v86 (F := Ideal) x0 x1 x2 x3 x4 x5 x6 x7 x8 x9 x10 x11 x12 x13 x14 ∘ Shape.Reduces.lift (by decide : S256x2.Reduces [1] S256) (ix1 p))
      = fun l : Fin 2 => Cert.Spec.logitAt (val_main_v66 (F := Ideal) x0 x1 x2 x3 x4 x5 x6 x7 x8 x9 x10) (val_main_v70 (F := Ideal) x3) x11 x12 x13 x14 p l := funext fun l => by
    show val_main_v86 (F := Ideal) x0 x1 x2 x3 x4 x5 x6 x7 x8 x9 x10 x11 x12 x13 x14 (Shape.Reduces.lift _ (ix1 p) l) = _
    rw [lift_at, logit_at]
    rfl
  rw [hf]
  rfl

/-- The reference's last value is the classifier: per graph, the softmax of its two logits. -/
theorem classify_ref : val_main_v97 (F := Ideal) x0 x1 x2 x3 x4 x5 x6 x7 x8 x9 x10 x11 x12 x13 x14
    = Cert.Spec.classify (val_main_v66 (F := Ideal) x0 x1 x2 x3 x4 x5 x6 x7 x8 x9 x10) (val_main_v70 (F := Ideal) x3) x11 x12 x13 x14 := by
  funext i
  obtain ⟨p, l, rfl⟩ : ∃ (p : Fin 256) (l : Fin 2), i = ix2 p l := ⟨i 0, i 1, eq_ix2 i⟩
  -- the exponential of a logit less the row's maximum
  have h93 : ∀ l' : Fin 2, val_main_v93 (F := Ideal) x0 x1 x2 x3 x4 x5 x6 x7 x8 x9 x10 x11 x12 x13 x14 (ix2 p l')
      = Ideal.exp (Cert.Spec.logitAt (val_main_v66 (F := Ideal) x0 x1 x2 x3 x4 x5 x6 x7 x8 x9 x10) (val_main_v70 (F := Ideal) x3) x11 x12 x13 x14 p l' - Cert.Spec.rowMax (fun l : Fin 2 => Cert.Spec.logitAt (val_main_v66 (F := Ideal) x0 x1 x2 x3 x4 x5 x6 x7 x8 x9 x10) (val_main_v70 (F := Ideal) x3) x11 x12 x13 x14 p l)) := by
    intro l'
    rw [val_main_v93_apply, val_main_v92_apply, val_main_v91_apply, val_main_v90_apply]
    have e : idx_main_v90 (idx_main_v91 (ix2 p l')) = ix1 p :=
      funext fun a => Fin.ext (by match a with | ⟨0, _⟩ => rfl)
    rw [e, rowmax_at, logit_at]
    simp only [Ideal.hostUnary_exp_def, Ideal.subf_def]
  rw [val_main_v97_apply, val_main_v96_apply, val_main_v95_apply, val_main_v94_apply, val_main_cst_15_apply]
  have e94 : ∀ k : Fin 2, idx_main_v94 (idx_main_v95 (idx_main_v96 (ix2 p l))) k = ix2 p k := fun k =>
    funext fun a => Fin.ext (by match a with | ⟨0, _⟩ => rfl | ⟨1, _⟩ => rfl)
  simp only [e94, h93]
  unfold Cert.Spec.classify Cert.Spec.softmaxAt
  simp only [Ideal.hostDivf_def, Ideal.ofBits_def, Ideal.ofBits_zero_f32, zero_add]

end Cert.ReferenceIdeal.RefClassify
end
-- ==== Proof.Bridge.lean ====
/-
  Both programs' results are the one network function of the argument arrays.

  Kernel side: the result array is the last region's write-back, the classifier of that region's operands; followed
  back through the program each operand is a shared host chain of the previous region's result or an argument
  (transposed weights read back), the previous region's result a layer of its operands, and so on down to the
  rescaled gathered rows.  Reference side: the same stages, each read at an index and met with the same
  specification, between the same host chains.  Nothing beyond commutativity and associativity of + enters, so
  the inputs' finiteness is never used.
-/
import proofs.«146041_j27530740367556_1_alg».proof.Proof.Spec
import proofs.«146041_j27530740367556_1_alg».proof.Proof.Chain
import proofs.«146041_j27530740367556_1_alg».proof.Proof.Fold
import proofs.«146041_j27530740367556_1_alg».proof.Proof.RegionNorm
import proofs.«146041_j27530740367556_1_alg».proof.Proof.RegionLayer
import proofs.«146041_j27530740367556_1_alg».proof.Proof.RegionClassify
import proofs.«146041_j27530740367556_1_alg».proof.Proof.RefNorm
import proofs.«146041_j27530740367556_1_alg».proof.Proof.RefLayer
import proofs.«146041_j27530740367556_1_alg».proof.Proof.RefClassify

set_option maxRecDepth 16384

noncomputable section

namespace Cert.Bridge

open Idealize.ShloMosaic Idealize.ShloMosaic.TcCoe Idealize.SL.Sem
open Cert.ReferenceIdeal.Chain (agg pool net)

/-! ## The reference -/

section Reference
open Cert.ReferenceIdeal Cert.ReferenceIdeal.Read

variable (x0 : S100000.Idx → BitVec 32) (x1 : S2x1600000.Idx → BitVec 32) (x2 : S1600000.Idx → EReal) (x3 : S100000.Idx → BitVec 32)
  (x4 : S10000x128.Idx → EReal) (x5 : S128x128.Idx → EReal) (x6 : S128.Idx → EReal) (x7 x8 : S128x128.Idx → EReal)
  (x9 : S128.Idx → EReal) (x10 : S128x128.Idx → EReal) (x11 : S64x128.Idx → EReal) (x12 : S64.Idx → EReal)
  (x13 : S2x64.Idx → EReal) (x14 : S2.Idx → EReal)

/-- The reference's result is the network on its gathered rows. -/
theorem ref_eq : val_main_v97 (F := Ideal) x0 x1 x2 x3 x4 x5 x6 x7 x8 x9 x10 x11 x12 x13 x14
    = net (val_main_v10 (F := Ideal) x0 x4) x1 x2 x3 x5 x6 x7 x8 x9 x10 x11 x12 x13 x14 := by
  rw [Cert.ReferenceIdeal.RefClassify.classify_ref, Cert.ReferenceIdeal.Chain.v66_eq, Cert.ReferenceIdeal.RefLayer.layer2_ref,
    Cert.ReferenceIdeal.Chain.v54_eq, Cert.ReferenceIdeal.RefLayer.layer1_ref, Cert.ReferenceIdeal.Chain.v32_eq,
    Cert.ReferenceIdeal.RefNorm.norm_ref]
  rfl

end Reference

/-! ## The kernel program -/

section Kernel
open Cert.KernelIdeal Cert.KernelIdeal.Gen Cert.KernelIdeal.Fold
open Cert.ReferenceIdeal.Read (val_main_v10 val_main_v70)

variable (m : (ℓ : Loc nD τ sig) → Buf (Elt Ideal) ℓ) (ρ : Dev nD → PrngReg) (c : Dev nD)

/-- The rescaled rows: the first region's result. -/
theorem feat0 : (W2 m ρ c (Proc.devRef .tc main_v11) : S100000x128.Idx → EReal)
    = Cert.Spec.normalize (val_main_v10 (F := Ideal) (m ((c : Thread nD τ).loc main_arg0)) (m ((c : Thread nD τ).loc main_arg4))) := by
  rw [w2_v11 m ρ c, Cert.KernelIdeal.RegionNorm.norm_arr (V1 m ρ) c]
  show Cert.Spec.normalize (W1 m ρ c (Proc.devRef .tc main_v10)) = _
  rw [w1_v10 m ρ c]

/-- The first layer's output: the second region's result. -/
theorem feat1 : (W4 m ρ c (Proc.devRef .tc main_v37) : S100000x128.Idx → EReal)
    = Cert.Spec.layer
        (agg (Cert.Spec.normalize (val_main_v10 (F := Ideal) (m ((c : Thread nD τ).loc main_arg0)) (m ((c : Thread nD τ).loc main_arg4))))
          (m ((c : Thread nD τ).loc main_arg1)) (m ((c : Thread nD τ).loc main_arg2)))
        (Cert.Spec.normalize (val_main_v10 (F := Ideal) (m ((c : Thread nD τ).loc main_arg0)) (m ((c : Thread nD τ).loc main_arg4))))
        (m ((c : Thread nD τ).loc main_arg5)) (m ((c : Thread nD τ).loc main_arg6)) (m ((c : Thread nD τ).loc main_arg7)) := by
  rw [w4_v37 m ρ c, Cert.KernelIdeal.RegionLayer.layer1_arr (V3 m ρ) c]
  show Cert.Spec.layer (W3 m ρ c (Proc.devRef .tc main_v36)) (W3 m ρ c (Proc.devRef .tc main_v11))
      (Cert.Spec.transposed (W3 m ρ c (Proc.devRef .tc main_v13))) (W3 m ρ c (Proc.devRef .tc main_arg6))
      (Cert.Spec.transposed (W3 m ρ c (Proc.devRef .tc main_v15))) = _
  rw [w3_v36 m ρ c, w3_v11 m ρ c, w3_v13 m ρ c, w3_arg6 m ρ c, w3_v15 m ρ c, feat0 m ρ c]

/-- The second layer's output: the third region's result. -/
theorem feat2 : (W6 m ρ c (Proc.devRef .tc main_v51) : S100000x128.Idx → EReal)
    = Cert.Spec.layer
        (agg (W4 m ρ c (Proc.devRef .tc main_v37)) (m ((c : Thread nD τ).loc main_arg1)) (m ((c : Thread nD τ).loc main_arg2)))
        (W4 m ρ c (Proc.devRef .tc main_v37))
        (m ((c : Thread nD τ).loc main_arg8)) (m ((c : Thread nD τ).loc main_arg9)) (m ((c : Thread nD τ).loc main_arg10)) := by
  rw [w6_v51 m ρ c, Cert.KernelIdeal.RegionLayer.layer2_arr (V5 m ρ) c]
  show Cert.Spec.layer (W5 m ρ c (Proc.devRef .tc main_v50)) (W5 m ρ c (Proc.devRef .tc main_v37))
      (Cert.Spec.transposed (W5 m ρ c (Proc.devRef .tc main_v17))) (W5 m ρ c (Proc.devRef .tc main_arg9))
      (Cert.Spec.transposed (W5 m ρ c (Proc.devRef .tc main_v19))) = _
  rw [w5_v50 m ρ c, w5_v37 m ρ c, w5_v17 m ρ c, w5_arg9 m ρ c, w5_v19 m ρ c]

/-- The kernel program's result is the network on its gathered rows. -/
theorem kernel_eq : (W8 m ρ c (Proc.devRef .tc main_v60) : S256x2.Idx → EReal)
    = net (val_main_v10 (F := Ideal) (m ((c : Thread nD τ).loc main_arg0)) (m ((c : Thread nD τ).loc main_arg4)))
        (m ((c : Thread nD τ).loc main_arg1)) (m ((c : Thread nD τ).loc main_arg2)) (m ((c : Thread nD τ).loc main_arg3))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) := by
  rw [w8_v60 m ρ c, Cert.KernelIdeal.RegionClassify.classify_arr (V7 m ρ) c]
  show Cert.Spec.classify (W7 m ρ c (Proc.devRef .tc main_v54)) (Cert.Spec.colOf (W7 m ρ c (Proc.devRef .tc main_v59)))
      (Cert.Spec.transposed (W7 m ρ c (Proc.devRef .tc main_v21))) (W7 m ρ c (Proc.devRef .tc main_arg12))
      (Cert.Spec.transposed (W7 m ρ c (Proc.devRef .tc main_v23))) (W7 m ρ c (Proc.devRef .tc main_arg14)) = _
  rw [w7_v54 m ρ c, w7_v59 m ρ c, w7_v21 m ρ c, w7_arg12 m ρ c, w7_v23 m ρ c, w7_arg14 m ρ c, feat2 m ρ c, feat1 m ρ c]
  rfl

end Kernel

end Cert.Bridge

end
-- ==== Proof.lean ====
/-
  A two-layer graph network with a pooled classifier, as a Pallas program and as plain jnp, agree on the extended reals.

  The network: each node's embedding row is gathered and rescaled to Euclidean norm at most one
  (r * min(1, 1 / (sqrt(sum r_k^2) + 1e-7))); two graph-convolution layers follow, each taking the edge-weighted sum of
  the neighbours' rows A and the node's own row H to max(A * Wl^T + b + H * Wr^T, 0); the rows are summed per graph and
  divided by max(count, 1); a hidden layer max(P * W1^T + b1, 0), an output layer Z * W2^T + b2 and a softmax over each
  graph's two logits finish.  The kernel program computes the rescaling, the two layers' dense parts and the classifier
  in four kernel regions tiled over blocks of 5000 rows (the classifier in one block), with the gathers and the
  accumulating scatters between them as host operations; its weights reach the regions transposed and in a narrower
  float format.  The reference is one straight line of host operations.

  Read exactly, a change of float format is the identity, a matrix product into a zero accumulator is the plain sum
  of products, and a reduction is the finite sum or maximum, so the two programs differ only in layout (blocks against
  the whole array, transposed weights, a bias row against a broadcast) and in the grouping of one sum: the kernel adds
  the bias after both products, the reference between them, which commutativity and associativity of + on the extended
  reals settle without any finiteness.  The gathers and scatters are the same operations on both sides and are carried
  as whole functions.  So both results are one function of the arguments, and the inputs' finiteness is never needed.
-/
import proofs.«146041_j27530740367556_1_alg».proof.Defs
import proofs.«146041_j27530740367556_1_alg».proof.Proof.Gen.Kernel
import proofs.«146041_j27530740367556_1_alg».proof.Proof.Gen.Kernel.Skeleton
import proofs.«146041_j27530740367556_1_alg».proof.Proof.Gen.Kernel.Launch
import proofs.«146041_j27530740367556_1_alg».proof.Proof.Gen.Kernel.Points
import proofs.«146041_j27530740367556_1_alg».proof.Proof.Gen.Kernel.Frame
import proofs.«146041_j27530740367556_1_alg».proof.Proof.Gen.KernelIdeal
import proofs.«146041_j27530740367556_1_alg».proof.Proof.Gen.KernelIdeal.Skeleton
import proofs.«146041_j27530740367556_1_alg».proof.Proof.Gen.KernelIdeal.Launch
import proofs.«146041_j27530740367556_1_alg».proof.Proof.Gen.KernelIdeal.Points
import proofs.«146041_j27530740367556_1_alg».proof.Proof.Gen.KernelIdeal.Frame
import proofs.«146041_j27530740367556_1_alg».proof.Proof.Gen.ReferenceIdeal
import proofs.«146041_j27530740367556_1_alg».proof.Proof.Gen.Pre_finite_inputs
import proofs.«146041_j27530740367556_1_alg».proof.Proof.Gen.ReferenceIdeal.Run
import proofs.«146041_j27530740367556_1_alg».proof.Proof.Gen.ReferenceIdeal.Read
import proofs.«146041_j27530740367556_1_alg».proof.Proof.KernelRun
import proofs.«146041_j27530740367556_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the network function of the (agreeing) argument arrays. -/
theorem algebraic : Cert.algebraic_KernelIdeal_ReferenceIdeal := by
  intro m ρ m' ρ' _ hagree
  refine ⟨_, (θ_run Cert.KernelIdeal.defs _ _).mono (fun r h c => ⟨(h c).1.trans (Cert.Bridge.kernel_eq m ρ c), (h c).2⟩)
    (Cert.KernelIdeal.Whole.run_result m ρ), ?_⟩
  refine (θ_run Cert.ReferenceIdeal.defs _ _).mono (fun r h c => ⟨?_, (h c).2⟩)
    (Cert.ReferenceIdeal.Value.run (F := Ideal) m' ρ')
  obtain ⟨h0, h1, h2, h3, h4, h5, h6, h7, h8, h9, h10, h11, h12, h13, h14⟩ := hagree c
  rw [(h c).1, Cert.ReferenceIdeal.Read.val_main_v97_eq, Cert.Bridge.ref_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
